-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x128 : Shape := ⟨2, ![128, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S8192x128 .f32) (main_arg1 : IVec S8192x8192 32) (main_arg2 : FVec F S128x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_c_2 : IVec S_ 32 := constantI S_ 32 0#32
  let main_v9 : IVec S8192x8192 32 := broadcastInDim S8192x8192 ![] bcast_S_S8192x8192 main_c_2
  let main_v10 : IVec S8192x8192 1 := cmpi .eq main_arg1 main_v9
  let main_c_3 : IVec S_ 32 := constantI S_ 32 1#32
  let main_v11 : IVec S8192x8192 32 := broadcastInDim S8192x8192 ![] bcast_S_S8192x8192 main_c_3
  let main_v12 : IVec S8192x8192 1 := cmpi .eq main_arg1 main_v11
  let main_v13 : IVec S8192x8192 1 := ori main_v10 main_v12
  let main_c_4 : IVec S_ 1 := constantI S_ 1 1#1
  let main_v14 : IVec S_ 1 := (fun x v => Host.reduce IntOp.andi x v reducesTo_S8192x8192_S_d0_1 h_S_) main_v13 main_c_4
  let main_v15 : IVec S_ 1 := andi main_v8 main_v14
  main_v15
-- ==== Kernel.lean ====
abbrev S8192x128 : Shape := ⟨2, ![8192, 128]⟩
abbrev S8192x8192 : Shape := ⟨2, ![8192, 8192]⟩
abbrev S128x128 : Shape := ⟨2, ![128, 128]⟩
abbrev S512x4096 : Shape := ⟨2, ![512, 4096]⟩
abbrev S4096x128 : Shape := ⟨2, ![4096, 128]⟩
abbrev S136x8192 : Shape := ⟨2, ![136, 8192]⟩
abbrev S136x4096 : Shape := ⟨2, ![136, 4096]⟩
abbrev S128x8192 : Shape := ⟨2, ![128, 8192]⟩
abbrev S1x8192 : Shape := ⟨2, ![1, 8192]⟩
abbrev S2x8192 : Shape := ⟨2, ![2, 8192]⟩
abbrev S7x8192 : Shape := ⟨2, ![7, 8192]⟩
abbrev S8x8192 : Shape := ⟨2, ![8, 8192]⟩
abbrev S136x512 : Shape := ⟨2, ![136, 512]⟩
abbrev S128x4096 : Shape := ⟨2, ![128, 4096]⟩
abbrev S1x4096 : Shape := ⟨2, ![1, 4096]⟩

abbrev nBuf : Space → Nat
  | .hbm => 4
  | .vmem => 8
  | .smem => 0
  | _ => 0

abbrev bufTy : (tb : Table) → Fin (tcTables nBuf tb) → BufTy
  | .hbm, ⟨0, _⟩ => ⟨S8192x128, .f32⟩
  | .hbm, ⟨1, _⟩ => ⟨S8192x8192, .i32⟩
  | .hbm, ⟨2, _⟩ => ⟨S128x128, .f32⟩
  | .hbm, ⟨3, _⟩ => ⟨S8192x128, .f32⟩
  | .local _ .vmem, ⟨0, _⟩ => ⟨S512x4096, .i32⟩
  | .local _ .vmem, ⟨1, _⟩ => ⟨S512x4096, .i32⟩
  | .local _ .vmem, ⟨2, _⟩ => ⟨S8192x128, .f32⟩
  | .local _ .vmem, ⟨3, _⟩ => ⟨S128x128, .f32⟩
  | .local _ .vmem, ⟨4, _⟩ => ⟨S4096x128, .f32⟩
  | .local _ .vmem, ⟨5, _⟩ => ⟨S4096x128, .f32⟩
  | .local _ .vmem, ⟨6, _⟩ => ⟨S136x8192, .bf16⟩
  | .local _ .vmem, ⟨7, _⟩ => ⟨S136x4096, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_3 : Index := 0#32
  let arg1 : BitVec 32 := BitVec.ofNat 32 (i 1).val
  let c512_i32 : BitVec 32 := 512#32
  let v7 : BitVec 32 := Scalar.muli arg1 c512_i32
  let v8 : Index := Scalar.indexCast v7
  ![0, v8.toNat]
def k0_cond4 (i : grid0.Coords) : BitVec 1 :=
  let arg1 : BitVec 32 := BitVec.ofNat 32 (i 1).val
  let c15_i32 : BitVec 32 := 15#32
  let v17 : BitVec 1 := Scalar.cmpi .eq arg1 c15_i32
  let v18 : BitVec 32 := Scalar.extui v17
  let c0_i32_8 : BitVec 32 := 0#32
  let v19 : BitVec 1 := Scalar.cmpi .ne v18 c0_i32_8
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S8192x128_S8192x128_0_0 : ∀ a, (![0, 0] : Fin 2 → Nat) a + S8192x128.size a ≤ S8192x128.size a
  h_S8192x128 : 0 < S8192x128.numel
  transposes_S8192x128_p1_0_S128x8192 : S8192x128.Transposes [1, 0] S128x8192
  bitsLt_bf16_f32 : FTy.bits .bf16 < FTy.bits .f32
  inb_S136x8192_S128x8192_0_0 : ∀ a, (![0, 0] : Fin 2 → Nat) a + S128x8192.size a ≤ S136x8192.size a
  h_S128x8192 : 0 < S128x8192.numel
  shapeCasts_S128x8192_S128x8192 : S128x8192.ShapeCasts S128x8192
  packedbf16_S136x8192_S128x8192_0_0 : (Rect.unit (s := S136x8192) ![0, 0] S128x8192.size inb_S136x8192_S128x8192_0_0).PackedRows (EltTy.packing .bf16)
  inb_S136x8192_S1x8192_128_0 : ∀ a, (![128, 0] : Fin 2 → Nat) a + S1x8192.size a ≤ S136x8192.size a
  h_S1x8192 : 0 < S1x8192.numel
  shapeCasts_S1x8192_S1x8192 : S1x8192.ShapeCasts S1x8192
  inb_S136x8192_S2x8192_128_0 : ∀ a, (![128, 0] : Fin 2 → Nat) a + S2x8192.size a ≤ S136x8192.size a
  h_S2x8192 : 0 < S2x8192.numel
  slices_S2x8192_S1x8192_0_0 : S2x8192.Slices ![0, 0] S1x8192
  packedbf16_S136x8192_S2x8192_128_0 : (Rect.unit (s := S136x8192) ![128, 0] S2x8192.size inb_S136x8192_S2x8192_128_0).PackedRows (EltTy.packing .bf16)
  inb_S136x8192_S7x8192_129_0 : ∀ a, (![129, 0] : Fin 2 → Nat) a + S7x8192.size a ≤ S136x8192.size a
  h_S7x8192 : 0 < S7x8192.numel
  shapeCasts_S7x8192_S7x8192 : S7x8192.ShapeCasts S7x8192
  inb_S136x8192_S8x8192_128_0 : ∀ a, (![128, 0] : Fin 2 → Nat) a + S8x8192.size a ≤ S136x8192.size a
  h_S8x8192 : 0 < S8x8192.numel
  slices_S8x8192_S7x8192_1_0 : S8x8192.Slices ![1, 0] S7x8192
  packedbf16_S136x8192_S8x8192_128_0 : (Rect.unit (s := S136x8192) ![128, 0] S8x8192.size inb_S136x8192_S8x8192_128_0).PackedRows (EltTy.packing .bf16)
  inb_S512x4096_S512x4096_0_0 : ∀ a, (![0, 0] : Fin 2 → Nat) a + S512x4096.size a ≤ S512x4096.size a
  h_S512x4096 : 0 < S512x4096.numel
  h_S136x512 : 0 < S136x512.numel
  inb_S136x4096_S136x4096_0_0 : ∀ a, (![0, 0] : Fin 2 → Nat) a + S136x4096.size a ≤ S136x4096.size a
  h_S136x4096 : 0 < S136x4096.numel
  shapeCasts_S136x4096_S136x4096 : S136x4096.ShapeCasts S136x4096
  inb_S136x4096_S128x4096_0_0 : ∀ a, (![0, 0] : Fin 2 → Nat) a + S128x4096.size a ≤ S136x4096.size a
  h_S128x4096 : 0 < S128x4096.numel
  inb_S136x4096_S1x4096_128_0 : ∀ a, (![128, 0] : Fin 2 → Nat) a + S1x4096.size a ≤ S136x4096.size a
  h_S1x4096 : 0 < S1x4096.numel
  inb_S128x128_S128x128_0_0 : ∀ a, (![0, 0] : Fin 2 → Nat) a + S128x128.size a ≤ S128x128.size a
  h_S128x128 : 0 < S128x128.numel
  broadcasts_S1x4096_S128x4096 : S1x4096.Broadcasts S128x4096
  transposes_S128x4096_p1_0_S4096x128 : S128x4096.Transposes [1, 0] S4096x128
  inb_S4096x128_S4096x128_0_0 : ∀ a, (![0, 0] : Fin 2 → Nat) a + S4096x128.size a ≤ S4096x128.size a
  h_S4096x128 : 0 < S4096x128.numel
  dot_S136x512_S512x4096_S136x4096_1_0_0_1_n_n_wf : DotDims.WF S136x512 S512x4096 S136x4096 [1] [0] [0] [1] [] []
  dot_S128x128_S128x4096_S128x4096_1_0_0_1_n_n_wf : DotDims.WF S128x128 S128x4096 S128x4096 [1] [0] [0] [1] [] []
  hrank0 : 0 < grid0.rank
  k0_off1_inb : ∀ i : grid0.Coords, ∀ a, (k0_off1 i) a + S136x512.size a ≤ S136x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x8192.size a
  hwx0_0 : ∀ i : grid0.Coords, EltTy.bits .i32 = 32 ∨ (Rect.block (s := S8192x8192) S512x4096.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S8192x128.size a
  hwx0_3 : ∀ i : grid0.Coords, EltTy.bits .f32 = 32 ∨ (Rect.block (s := S8192x128) S4096x128.size (cc0_transform_3 i) (hinb0_3 i)).WholeWords (EltTy.packing .f32)

variable [Facts₀]

def dot_S136x512_S512x4096_S136x4096_1_0_0_1_n_n : DotDims S136x512 S512x4096 S136x4096 where
  lhsContracting := [1]
  rhsContracting := [0]
  lhsNonContracting := [0]
  rhsNonContracting := [1]
  lhsBatch := []
  rhsBatch := []
  wf := dot_S136x512_S512x4096_S136x4096_1_0_0_1_n_n_wf
def dot_S128x128_S128x4096_S128x4096_1_0_0_1_n_n : DotDims S128x128 S128x4096 S128x4096 where
  lhsContracting := [1]
  rhsContracting := [0]
  lhsNonContracting := [0]
  rhsNonContracting := [1]
  lhsBatch := []
  rhsBatch := []
  wf := dot_S128x128_S128x4096_S128x4096_1_0_0_1_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond4 i == 1#1) | ⟨_ + 4, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S128x128 : Shape := ⟨2, ![128, 128]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .i32⟩
  | .hbm, ⟨2, _⟩ => ⟨S128x128, .f32⟩
  | .hbm, ⟨3, _⟩ => ⟨S_, .i32⟩
  | .hbm, ⟨4, _⟩ => ⟨S8192x8192, .i32⟩
  | .hbm, ⟨5, _⟩ => ⟨S8192x8192, .i1⟩
  | .hbm, ⟨6, _⟩ => ⟨S8192x8192, .f32⟩
  | .hbm, ⟨7, _⟩ => ⟨S_, .i32⟩
  | .hbm, ⟨8, _⟩ => ⟨S8192, .i32⟩
  | .hbm, ⟨9, _⟩ => ⟨S8192, .f32⟩
  | .hbm, ⟨10, _⟩ => ⟨S8192x8192, .f32⟩
  | .hbm, ⟨11, _⟩ => ⟨S8192x128, .f32⟩
  | .hbm, ⟨12, _⟩ => ⟨S128x128, .f32⟩
  | .hbm, ⟨13, _⟩ => ⟨S8192x128, .f32⟩
  | .hbm, ⟨14, _⟩ => ⟨S8192x1, .f32⟩
  | .hbm, ⟨15, _⟩ => ⟨S8192x128, .f32⟩
  | .hbm, ⟨16, _⟩ => ⟨S8192x128, .f32⟩
  | .hbm, ⟨17, _⟩ => ⟨S_, .f32⟩
  | .hbm, ⟨18, _⟩ => ⟨S8192x128, .f32⟩
  | .hbm, ⟨19, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_cst : Ref sig .tc := ⟨.hbm, 17, rfl⟩
abbrev main_call0_v0 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d0 : S8192x8192.ReducesTo [0] S8192
  h_S_ : 0 < S_.numel
  transposes_S8192x8192_S8192x8192_1_0 : S8192x8192.Transposes [1, 0] S8192x8192
  transposes_S128x128_S128x128_1_0 : S128x128.Transposes [1, 0] S128x128
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  bcast_S_S8192x128 : S_.BroadcastsInDim S8192x128 (![] : Fin 0 → Fin S8192x128.rank)
  dot_S8192x8192_S8192x128_S8192x128_1_0_0_1_n_n_wf : DotDims.WF S8192x8192 S8192x128 S8192x128 [1] [0] [0] [1] [] []
  dot_S8192x128_S128x128_S8192x128_1_0_0_1_n_n_wf : DotDims.WF S8192x128 S128x128 S8192x128 [1] [0] [0] [1] [] []

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

class Facts : Prop extends Facts₀ where

variable [Facts]
-- ==== Proof.LibSetupRows.lean ====
/-
  A 136-row buffer filled by three stores, read back row by row.

  Rows 0..127 are stored whole. Row 128 is stored by a blend: the two rows 128..129 are loaded, the new row is put at
  local row 0 of the loaded block, and the block is stored back. Rows 129..135 are stored by a second blend: the eight
  rows 128..135 are loaded (after the first two stores), the seven new rows are put at local rows 1..7, and the block is
  stored back. The second blend therefore rewrites row 128 with what the first blend left there, and the first blend's
  copy of the old row 129 is overwritten by the second. So the buffer finally holds the first payload on rows below 128,
  the second payload on row 128 and the third payload on rows 129..135, whatever it held before and whichever contents
  the loads were taken over (setupRows, read_writes_setup). The statement is generic in the element values.
-/
import Idealize.ShloMosaic.Lib.WritesUnit
import Idealize.ShloMosaic.Lib.Pipeline.FrameBody
import Idealize.ShloMosaic.Lib.Pipeline.Value
import Idealize.ShloMosaic.Lib.ValueIdx
import Idealize.ShloMosaic.PureOps.ShapeOps

namespace Idealize.ShloMosaic.SetupRows

open Idealize.ShloMosaic ValueIdx

/-! ## A block update read at an index -/

/-- An index at position j of the updated block (on every axis the index is the block's start plus j) reads the
update at j. -/
theorem updateSlice_of_mem {α : Type} {s u : Shape} (x : s.Idx → α) (upd : u.Idx → α) (start : Fin s.rank → ℕ)
    (h : s.Slices start u) (i : s.Idx) (j : u.Idx)
    (hj : ∀ b : Fin u.rank, (i (b.cast h.1)).val = start (b.cast h.1) + (j b).val) :
    updateSlice x upd start h i = upd j := by
  have hin : ∀ a : Fin s.rank, start a ≤ (i a).val ∧ (i a).val < start a + u.size (a.cast h.1.symm) := fun a => by
    have h1 := hj (a.cast h.1.symm)
    have hlt := (j (a.cast h.1.symm)).isLt
    have e : (a.cast h.1.symm).cast h.1 = a := rfl
    rw [e] at h1
    omega
  unfold updateSlice
  rw [dif_pos hin]
  congr 1
  funext b
  apply Fin.ext
  show (i (b.cast h.1)).val - start (b.cast h.1) = (j b).val
  have := hj b
  omega

/-- An index that misses the updated block on some axis reads the operand. -/
theorem updateSlice_of_not_mem {α : Type} {s u : Shape} (x : s.Idx → α) (upd : u.Idx → α) (start : Fin s.rank → ℕ)
    (h : s.Slices start u) (i : s.Idx) (a : Fin s.rank)
    (ha : (i a).val < start a ∨ start a + u.size (a.cast h.1.symm) ≤ (i a).val) :
    updateSlice x upd start h i = x i := by
  unfold updateSlice
  rw [dif_neg]
  intro hin
  have := hin a
  omega

/-! ## The contents the three stores leave -/

section Rows

variable {e : EltTy} {Val : EltTy → Type}

/-- Rows below 128 from the first payload, row 128 from the second (its one row), rows 129..135 from the third (its
row r - 129). -/
def setupRows (w1 : (⟨2, ![128, 8192]⟩ : Shape).Idx → Val e) (w2 : (⟨2, ![1, 8192]⟩ : Shape).Idx → Val e)
    (w3 : (⟨2, ![7, 8192]⟩ : Shape).Idx → Val e) : (⟨2, ![136, 8192]⟩ : Shape).Idx → Val e :=
  fun y =>
    if h : (y 0).val < 128 then w1 (ix2 ⟨(y 0).val, h⟩ (y 1))
    else if _h' : (y 0).val = 128 then w2 (ix2 0 (y 1))
    else w3 (ix2 ⟨(y 0).val - 129, by have := idx2_lt0 y; omega⟩ (y 1))

variable (w1 : (⟨2, ![128, 8192]⟩ : Shape).Idx → Val e) (w2 : (⟨2, ![1, 8192]⟩ : Shape).Idx → Val e)
  (w3 : (⟨2, ![7, 8192]⟩ : Shape).Idx → Val e)

/-- A row below 128 reads the first payload at that row. -/
theorem setupRows_lt (d : ℕ) (hd : d < 128) (hd' : d < 136) (j : Fin 8192) :
    setupRows w1 w2 w3 (ix2 ⟨d, hd'⟩ j) = w1 (ix2 ⟨d, hd⟩ j) := by
  unfold setupRows
  exact dif_pos hd

/-- Row 128 reads the second payload's one row. -/
theorem setupRows_128 (h128 : 128 < 136) (j : Fin 8192) :
    setupRows w1 w2 w3 (ix2 ⟨128, h128⟩ j) = w2 (ix2 0 j) := by
  unfold setupRows
  rw [dif_neg (show ¬ ((ix2 (⟨128, h128⟩ : Fin 136) j : (⟨2, ![136, 8192]⟩ : Shape).Idx) 0).val < 128 from Nat.lt_irrefl 128)]
  exact dif_pos rfl

/-- A row from 129 on reads the third payload at that row minus 129. -/
theorem setupRows_ge (d : ℕ) (hd : 129 ≤ d) (hd' : d < 136) (j : Fin 8192) :
    setupRows w1 w2 w3 (ix2 ⟨d, hd'⟩ j) = w3 (ix2 ⟨d - 129, by omega⟩ j) := by
  unfold setupRows
  rw [dif_neg (show ¬ ((ix2 (⟨d, hd'⟩ : Fin 136) j : (⟨2, ![136, 8192]⟩ : Shape).Idx) 0).val < 128 from by
    show ¬ d < 128; omega)]
  rw [dif_neg (show ¬ ((ix2 (⟨d, hd'⟩ : Fin 136) j : (⟨2, ![136, 8192]⟩ : Shape).Idx) 0).val = 128 from by
    show ¬ d = 128; omega)]

/-- Row 129 + k, for k below 7, reads the third payload at row k. -/
theorem setupRows_add (k : ℕ) (hk : k < 7) (hk' : 129 + k < 136) (j : Fin 8192) :
    setupRows w1 w2 w3 (ix2 ⟨129 + k, hk'⟩ j) = w3 (ix2 ⟨k, hk⟩ j) := by
  rw [setupRows_ge w1 w2 w3 (129 + k) (by omega) hk' j]
  congr 2
  apply Fin.ext
  show 129 + k - 129 = k
  omega

end Rows

/-! ## The three stores read back -/

section Stores

variable {sig : RefSig} {κ : Kind} {sp : Space} {e : EltTy} {Val : EltTy → Type}
  (v : View sig κ sp (⟨2, ![136, 8192]⟩ : Shape) e)
  (inb128 : ∀ a, (![0, 0] : Fin 2 → ℕ) a + (⟨2, ![128, 8192]⟩ : Shape).size a ≤ (⟨2, ![136, 8192]⟩ : Shape).size a)
  (inb2 : ∀ a, (![128, 0] : Fin 2 → ℕ) a + (⟨2, ![2, 8192]⟩ : Shape).size a ≤ (⟨2, ![136, 8192]⟩ : Shape).size a)
  (inb8 : ∀ a, (![128, 0] : Fin 2 → ℕ) a + (⟨2, ![8, 8192]⟩ : Shape).size a ≤ (⟨2, ![136, 8192]⟩ : Shape).size a)
  (sl2 : (⟨2, ![2, 8192]⟩ : Shape).Slices ![0, 0] ⟨2, ![1, 8192]⟩)
  (sl8 : (⟨2, ![8, 8192]⟩ : Shape).Slices ![1, 0] ⟨2, ![7, 8192]⟩)
  (w1 : (⟨2, ![128, 8192]⟩ : Shape).Idx → Val e) (w2 : (⟨2, ![1, 8192]⟩ : Shape).Idx → Val e)
  (w3 : (⟨2, ![7, 8192]⟩ : Shape).Idx → Val e)

/-- The buffer after the three stores, over ANY prior contents g, the two loads taken over contents f: the first
payload on rows below 128, the second on row 128, the third on rows 129..135. -/
theorem read_writes_setup_of (f g : v.ty.Contents Val) :
    v.read Val (v.writes Val g
      ((⟨Rect.unit (s := (⟨2, ![136, 8192]⟩ : Shape)) ![128, 0] (⟨2, ![8, 8192]⟩ : Shape).size inb8,
          updateSlice (v.readAt Val (Rect.unit (s := (⟨2, ![136, 8192]⟩ : Shape)) ![128, 0] (⟨2, ![8, 8192]⟩ : Shape).size inb8).toLoadRect
            (v.writes Val f
              [(⟨Rect.unit (s := (⟨2, ![136, 8192]⟩ : Shape)) ![128, 0] (⟨2, ![2, 8192]⟩ : Shape).size inb2,
                  updateSlice (v.readAt Val (Rect.unit (s := (⟨2, ![136, 8192]⟩ : Shape)) ![128, 0] (⟨2, ![2, 8192]⟩ : Shape).size inb2).toLoadRect f)
                    w2 ![0, 0] sl2⟩ : View.Piece Val (⟨2, ![136, 8192]⟩ : Shape) e),
                ⟨Rect.unit (s := (⟨2, ![136, 8192]⟩ : Shape)) ![0, 0] (⟨2, ![128, 8192]⟩ : Shape).size inb128, w1⟩]))
            w3 ![1, 0] sl8⟩ : View.Piece Val (⟨2, ![136, 8192]⟩ : Shape) e)
        :: [(⟨Rect.unit (s := (⟨2, ![136, 8192]⟩ : Shape)) ![128, 0] (⟨2, ![2, 8192]⟩ : Shape).size inb2,
              updateSlice (v.readAt Val (Rect.unit (s := (⟨2, ![136, 8192]⟩ : Shape)) ![128, 0] (⟨2, ![2, 8192]⟩ : Shape).size inb2).toLoadRect f)
                w2 ![0, 0] sl2⟩ : View.Piece Val (⟨2, ![136, 8192]⟩ : Shape) e),
            ⟨Rect.unit (s := (⟨2, ![136, 8192]⟩ : Shape)) ![0, 0] (⟨2, ![128, 8192]⟩ : Shape).size inb128, w1⟩]))
      = setupRows w1 w2 w3 := by
  funext y
  obtain ⟨r, q, rfl⟩ : ∃ (r : Fin 136) (q : Fin 8192), y = ix2 r q := ⟨y 0, y 1, eq_ix2 y⟩
  obtain ⟨d, hd'⟩ := r
  by_cases h1 : d < 128
  · rw [setupRows_lt w1 w2 w3 d h1 hd' q]
    rw [View.read_writes_cons_rows_of_not_mem v g inb8 _ _ (ix2 ⟨d, hd'⟩ q) rfl rfl (Or.inl h1)]
    rw [View.read_writes_cons_rows_of_not_mem v g inb2 _ _ (ix2 ⟨d, hd'⟩ q) rfl rfl (Or.inl h1)]
    exact View.read_writes_cons_rows_of_mem v g inb128 w1 [] (ix2 ⟨d, hd'⟩ q) (ix2 ⟨d, h1⟩ q) rfl
      (Nat.zero_add d).symm rfl
  · by_cases h2 : d = 128
    · subst h2
      rw [setupRows_128 w1 w2 w3 hd' q]
      -- the newest store covers row 128 at its local row 0, where its blend kept what it loaded
      rw [View.read_writes_cons_rows_of_mem v g inb8 _ _ (ix2 ⟨128, hd'⟩ q)
        (ix2 (0 : Fin 8) q : (⟨2, ![8, 8192]⟩ : Shape).Idx) rfl rfl rfl]
      rw [updateSlice_of_not_mem _ w3 ![1, 0] sl8 (ix2 (0 : Fin 8) q : (⟨2, ![8, 8192]⟩ : Shape).Idx) (0 : Fin 2)
        (Or.inl Nat.zero_lt_one)]
      rw [View.readAt_apply]
      -- what it loaded there is what the second store left: its blend took the new row at local row 0
      rw [View.read_writes_cons_rows_of_mem v f inb2 _ _ _
        (ix2 (0 : Fin 2) q : (⟨2, ![2, 8192]⟩ : Shape).Idx) rfl rfl
        (show 0 + 1 * q.val = q.val by omega)]
      exact updateSlice_of_mem _ w2 ![0, 0] sl2 (ix2 (0 : Fin 2) q : (⟨2, ![2, 8192]⟩ : Shape).Idx) (ix2 0 q)
        (by exact Fin.forall_fin_two.mpr ⟨rfl, (Nat.zero_add q.val).symm⟩)
    · have h3 : 129 ≤ d := by omega
      rw [setupRows_ge w1 w2 w3 d h3 hd' q]
      -- the newest store covers the row at local row d - 128, where its blend took the new row d - 129
      rw [View.read_writes_cons_rows_of_mem v g inb8 _ _ (ix2 ⟨d, hd'⟩ q)
        (ix2 (⟨d - 128, by omega⟩ : Fin 8) q : (⟨2, ![8, 8192]⟩ : Shape).Idx) rfl
        (show d = 128 + (d - 128) by omega) rfl]
      exact updateSlice_of_mem _ w3 ![1, 0] sl8
        (ix2 (⟨d - 128, by omega⟩ : Fin 8) q : (⟨2, ![8, 8192]⟩ : Shape).Idx) (ix2 ⟨d - 129, by omega⟩ q)
        (by exact Fin.forall_fin_two.mpr ⟨show d - 128 = 1 + (d - 129) by omega, (Nat.zero_add q.val).symm⟩)

/-- The same over the view's junk contents: what the three stores leave in a buffer nothing else wrote. -/
theorem read_writes_setup [∀ e, Nonempty (Val e)] (f : v.ty.Contents Val) :
    v.read Val (v.writes Val v.junk
      ((⟨Rect.unit (s := (⟨2, ![136, 8192]⟩ : Shape)) ![128, 0] (⟨2, ![8, 8192]⟩ : Shape).size inb8,
          updateSlice (v.readAt Val (Rect.unit (s := (⟨2, ![136, 8192]⟩ : Shape)) ![128, 0] (⟨2, ![8, 8192]⟩ : Shape).size inb8).toLoadRect
            (v.writes Val f
              [(⟨Rect.unit (s := (⟨2, ![136, 8192]⟩ : Shape)) ![128, 0] (⟨2, ![2, 8192]⟩ : Shape).size inb2,
                  updateSlice (v.readAt Val (Rect.unit (s := (⟨2, ![136, 8192]⟩ : Shape)) ![128, 0] (⟨2, ![2, 8192]⟩ : Shape).size inb2).toLoadRect f)
                    w2 ![0, 0] sl2⟩ : View.Piece Val (⟨2, ![136, 8192]⟩ : Shape) e),
                ⟨Rect.unit (s := (⟨2, ![136, 8192]⟩ : Shape)) ![0, 0] (⟨2, ![128, 8192]⟩ : Shape).size inb128, w1⟩]))
            w3 ![1, 0] sl8⟩ : View.Piece Val (⟨2, ![136, 8192]⟩ : Shape) e)
        :: [(⟨Rect.unit (s := (⟨2, ![136, 8192]⟩ : Shape)) ![128, 0] (⟨2, ![2, 8192]⟩ : Shape).size inb2,
                  updateSlice (v.readAt Val (Rect.unit (s := (⟨2, ![136, 8192]⟩ : Shape)) ![128, 0] (⟨2, ![2, 8192]⟩ : Shape).size inb2).toLoadRect f)
                    w2 ![0, 0] sl2⟩ : View.Piece Val (⟨2, ![136, 8192]⟩ : Shape) e),
                ⟨Rect.unit (s := (⟨2, ![136, 8192]⟩ : Shape)) ![0, 0] (⟨2, ![128, 8192]⟩ : Shape).size inb128, w1⟩]))
      = setupRows w1 w2 w3 :=
  read_writes_setup_of v inb128 inb2 inb8 sl2 sl8 w1 w2 w3 f v.junk

/-- The canonical contents of the three stores (at each index the newest covering payload) are the same function. -/
theorem canon_setup [∀ e, Nonempty (Val e)] (f : v.ty.Contents Val) :
    View.canon
      ((⟨Rect.unit (s := (⟨2, ![136, 8192]⟩ : Shape)) ![128, 0] (⟨2, ![8, 8192]⟩ : Shape).size inb8,
          updateSlice (v.readAt Val (Rect.unit (s := (⟨2, ![136, 8192]⟩ : Shape)) ![128, 0] (⟨2, ![8, 8192]⟩ : Shape).size inb8).toLoadRect
            (v.writes Val f
              [(⟨Rect.unit (s := (⟨2, ![136, 8192]⟩ : Shape)) ![128, 0] (⟨2, ![2, 8192]⟩ : Shape).size inb2,
                  updateSlice (v.readAt Val (Rect.unit (s := (⟨2, ![136, 8192]⟩ : Shape)) ![128, 0] (⟨2, ![2, 8192]⟩ : Shape).size inb2).toLoadRect f)
                    w2 ![0, 0] sl2⟩ : View.Piece Val (⟨2, ![136, 8192]⟩ : Shape) e),
                ⟨Rect.unit (s := (⟨2, ![136, 8192]⟩ : Shape)) ![0, 0] (⟨2, ![128, 8192]⟩ : Shape).size inb128, w1⟩]))
            w3 ![1, 0] sl8⟩ : View.Piece Val (⟨2, ![136, 8192]⟩ : Shape) e)
        :: [(⟨Rect.unit (s := (⟨2, ![136, 8192]⟩ : Shape)) ![128, 0] (⟨2, ![2, 8192]⟩ : Shape).size inb2,
                  updateSlice (v.readAt Val (Rect.unit (s := (⟨2, ![136, 8192]⟩ : Shape)) ![128, 0] (⟨2, ![2, 8192]⟩ : Shape).size inb2).toLoadRect f)
                    w2 ![0, 0] sl2⟩ : View.Piece Val (⟨2, ![136, 8192]⟩ : Shape) e),
                ⟨Rect.unit (s := (⟨2, ![136, 8192]⟩ : Shape)) ![0, 0] (⟨2, ![128, 8192]⟩ : Shape).size inb128, w1⟩])
      = setupRows w1 w2 w3 :=
  (View.read_writes_junk_eq_canon v _).symm.trans (read_writes_setup v inb128 inb2 inb8 sl2 sl8 w1 w2 w3 f)

end Stores

end Idealize.ShloMosaic.SetupRows
-- ==== Proof.BitsBody.lean ====
import proofs.«178046_g24824910970967_cont_8to1_1833_20_alg».proof.Proof.Gen.Kernel.Frame
import proofs.«178046_g24824910970967_cont_8to1_1833_20_alg».proof.Proof.Gen.Kernel.Skeleton
import Idealize.ShloMosaic.Lib.Pipeline.FrameBody
import Idealize.ShloMosaic.Lib.Pipeline.Value
import Idealize.ShloMosaic.Lib.Ring
import Idealize.ShloMosaic.Lib.Tactic
import Idealize.ShloMosaic.Lib.ValueIdx
import proofs.«178046_g24824910970967_cont_8to1_1833_20_alg».proof.Proof.LibSetupRows

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, decided over the grid -/

/-- The first branch (filling the transposed-feature scratch) is taken at the grid's first point only. -/
abbrev condSetup (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The second branch (the accumulator stored afresh) is taken where the contraction block is the first. -/
abbrev condFirst (i : grid0.Coords) : Prop := (Scalar.cmpi .ne (Scalar.extui (Scalar.cmpi .eq (BitVec.ofNat 32 (i 1).val) 0#32)) 0#32) = 1#1
/-- The third branch (the accumulator added to) is taken at every later contraction block. -/
abbrev condAccum (i : grid0.Coords) : Prop := (Scalar.cmpi .ne (Scalar.extui (Scalar.cmpi .sgt (BitVec.ofNat 32 (i 1).val) 0#32)) 0#32) = 1#1
/-- The fourth branch (the output block computed and stored) is taken at the last contraction block. -/
abbrev condLast (i : grid0.Coords) : Prop := k0_cond4 i = 1#1

theorem hcondSetup : ∀ t : Fin cfg0.N, condSetup (grid0.coords t) ↔ t.val = 0 :=
  (by decide +kernel : ∀ t : Fin grid0.N, condSetup (grid0.coords t) ↔ t.val = 0)
theorem hcondFirst : ∀ t : Fin cfg0.N, condFirst (grid0.coords t) ↔ t.val % 16 = 0 :=
  (by decide +kernel : ∀ t : Fin grid0.N, condFirst (grid0.coords t) ↔ t.val % 16 = 0)
theorem hcondAccum : ∀ t : Fin cfg0.N, condAccum (grid0.coords t) ↔ ¬ t.val % 16 = 0 :=
  (by decide +kernel : ∀ t : Fin grid0.N, condAccum (grid0.coords t) ↔ ¬ t.val % 16 = 0)
theorem hcondLast : ∀ t : Fin cfg0.N, condLast (grid0.coords t) ↔ t.val % 16 = 15 :=
  (by decide +kernel : ∀ t : Fin grid0.N, condLast (grid0.coords t) ↔ t.val % 16 = 15)

theorem hz2 : (![0, 0] : Fin 2 → ℕ) = fun _ => 0 := by funext a; fin_cases a <;> rfl

/-- The column block of the transposed-feature scratch the point multiplies: rows all, columns `512 k …`. -/
abbrev xhRect (i : grid0.Coords) : Rect S136x8192 := Rect.unit (s := S136x8192) (k0_off1 i) S136x512.size (k0_off1_inb i)
/-- The accumulator's feature rows, and its row of column sums. -/
abbrev accRows : Rect S136x4096 := Rect.unit (s := S136x4096) ![0, 0] S128x4096.size inb_S136x4096_S128x4096_0_0
abbrev accDeg : Rect S136x4096 := Rect.unit (s := S136x4096) ![128, 0] S1x4096.size inb_S136x4096_S1x4096_128_0

/-- What a point after the first of its column half leaves in the accumulator: the block product added. -/
def accNext (i : grid0.Coords) (x0 : Vec F S512x4096 .i32) (xs0 : Vec F S136x8192 .bf16) (xs1 : Vec F S136x4096 .f32) : Vec F S136x4096 .f32 :=
  k0_pay6 x0 (View.ld xs0 (xhRect i)) xs1
/-- What the first point of a column half leaves in the accumulator: the block product. -/
def accFirst (i : grid0.Coords) (x0 : Vec F S512x4096 .i32) (xs0 : Vec F S136x8192 .bf16) : Vec F S136x4096 .f32 :=
  k0_pay5 x0 (View.ld xs0 (xhRect i))
/-- The output block the last point of a column half stores, from the accumulator it leaves and the mixing matrix. -/
def outOf (acc : Vec F S136x4096 .f32) (x2 : Vec F S128x128 .f32) : Vec F S4096x128 .f32 :=
  k0_pay7 (View.ld acc accRows) (View.ld acc accDeg) x2

/-- The three stores of the first point, as the body makes them — rows 0..127 whole, then row 128 through the two rows
    of its words, then rows 129..135 through the eight rows of theirs, each partial store a blend of what it loaded —
    leave the first store's rows, the second's row and the third's rows, whatever the buffer held. -/
theorem setup_read {sig' : RefSig} {κ : Kind} {sp : Space} (v : View sig' κ sp S136x8192 .bf16) (fs0 : v.ty.Contents (Elt F))
    (w1 : S128x8192.Idx → Elt F .bf16) (w2 : S1x8192.Idx → Elt F .bf16) (w3 : S7x8192.Idx → Elt F .bf16) :
    View.read (Elt F) v (v.writes (Elt F) v.junk
      ((⟨Rect.unit (s := S136x8192) ![128, 0] S8x8192.size inb_S136x8192_S8x8192_128_0,
          (fun old => updateSlice old w3 ![1, 0] slices_S8x8192_S7x8192_1_0)
            (View.readAt (Elt F) v (Rect.unit (s := S136x8192) ![128, 0] S8x8192.size inb_S136x8192_S8x8192_128_0).toLoadRect
              (v.writes (Elt F) fs0
                [⟨Rect.unit (s := S136x8192) ![128, 0] S2x8192.size inb_S136x8192_S2x8192_128_0,
                    (fun old => updateSlice old w2 ![0, 0] slices_S2x8192_S1x8192_0_0)
                      (View.readAt (Elt F) v (Rect.unit (s := S136x8192) ![128, 0] S2x8192.size inb_S136x8192_S2x8192_128_0).toLoadRect fs0)⟩,
                  ⟨Rect.unit (s := S136x8192) ![0, 0] S128x8192.size inb_S136x8192_S128x8192_0_0, w1⟩]))⟩ : View.Piece (Elt F) S136x8192 .bf16)
        :: [⟨Rect.unit (s := S136x8192) ![128, 0] S2x8192.size inb_S136x8192_S2x8192_128_0,
              (fun old => updateSlice old w2 ![0, 0] slices_S2x8192_S1x8192_0_0)
                (View.readAt (Elt F) v (Rect.unit (s := S136x8192) ![128, 0] S2x8192.size inb_S136x8192_S2x8192_128_0).toLoadRect fs0)⟩,
            ⟨Rect.unit (s := S136x8192) ![0, 0] S128x8192.size inb_S136x8192_S128x8192_0_0, w1⟩]))
      = SetupRows.setupRows w1 w2 w3 := by
  exact SetupRows.read_writes_setup v inb_S136x8192_S128x8192_0_0 inb_S136x8192_S2x8192_128_0 inb_S136x8192_S8x8192_128_0 slices_S2x8192_S1x8192_0_0 slices_S8x8192_S7x8192_1_0 w1 w2 w3 fs0

variable (c : Dev nD) (i : grid0.Coords) (arg2 : Memref sig .tc .vmem S512x4096 .i32) (harg2 : arg2.IsWhole) (arg3 : Memref sig .tc .vmem S8192x128 .f32) (harg3 : arg3.IsWhole) (arg4 : Memref sig .tc .vmem S128x128 .f32) (harg4 : arg4.IsWhole) (arg5 : Memref sig .tc .vmem S4096x128 .f32) (harg5 : arg5.IsWhole) (arg6 : Memref sig .tc .vmem S136x8192 .bf16) (harg6 : arg6.IsWhole) (arg7 : Memref sig .tc .vmem S136x4096 .f32) (harg7 : arg7.IsWhole)

set_option maxHeartbeats 1000000 in
/-- A point that only adds its block product to the accumulator. -/
theorem runB (hc1 : ¬condSetup i) (hc2 : ¬condFirst i) (hc3 : condAccum i) (hc4 : ¬condLast i)
    (x0 : Vec F S512x4096 .i32) (xs0 : Vec F S136x8192 .bf16) (xs1 : Vec F S136x4096 .f32)
    (R3 R4 R5 : sProp 𝕄) (E : Set ℕ) (K : PUnit → sProp 𝕄) :
        iprop(owns (c : Thread nD τ) arg2 fullShare x0 ∗ R3 ∗ R4 ∗ R5 ∗ owns (c : Thread nD τ) arg6 fullShare xs0 ∗ owns (c : Thread nD τ) arg7 fullShare xs1
            ∗ (iprop(owns (c : Thread nD τ) arg2 fullShare x0 ∗ R3 ∗ R4 ∗ R5 ∗ owns (c : Thread nD τ) arg6 fullShare xs0 ∗ owns (c : Thread nD τ) arg7 fullShare (accNext i x0 xs0 xs1)) -∗ K ⟨⟩))
          ⊢ wp frame (wpE (defs₀ (F := F)) Variants.none c none) E (cc0__body i arg2 harg2 arg3 harg3 arg4 harg4 arg5 harg5 arg6 harg6 arg7 harg7) K := by
  simp only [cc0__body_eq_skeleton]; unfold cc0__body_skel
  unfold owns
  iintro ⟨⟨%f0, %hf0, H0⟩, H3, H4, H5, ⟨%fs0, %hfs0, HS0⟩, ⟨%fs1, %hfs1, HS1⟩, Hk⟩
  obtain rfl := harg2.eq_unread hf0; obtain rfl := harg6.eq_unread hfs0; obtain rfl := harg7.eq_unread hfs1
  sl_exec (disch := first | exact hc1 | exact hc2 | exact hc3 | exact hc4)
  sl_step
  iapply Hk
  isplitl [H0]
  · iexists _; isplitr; · ipureintro; exact harg2.read_unread _
    iexact H0
  isplitl [H3]; · iexact H3
  isplitl [H4]; · iexact H4
  isplitl [H5]; · iexact H5
  isplitl [HS0]
  · iexists _; isplitr; · ipureintro; exact harg6.read_unread _
    iexact HS0
  iexists _; isplitr
  swap; · iexact HS1
  ipureintro
  rw [View.read_writes_eq_canon _ _ _ (fun y => ⟨_, List.mem_singleton_self _, View.mem_set_unit_zero hz2 inb_S136x4096_S136x4096_0_0 y⟩), View.canon_unit_zero hz2]
  simp only [View.readAt_eq_ld, harg2.read_unread, harg6.read_unread, harg7.read_unread, View.ld_unit_zero (S := S512x4096) hz2, View.ld_unit_zero (S := S136x4096) hz2]
  rfl

set_option maxHeartbeats 1000000 in
/-- The first point of the second column half: the accumulator stored afresh, nothing else. -/
theorem runD (hc1 : ¬condSetup i) (hc2 : condFirst i) (hc3 : ¬condAccum i) (hc4 : ¬condLast i)
    (x0 : Vec F S512x4096 .i32) (xs0 : Vec F S136x8192 .bf16)
    (R3 R4 R5 : sProp 𝕄) (E : Set ℕ) (K : PUnit → sProp 𝕄) :
        iprop(owns (c : Thread nD τ) arg2 fullShare x0 ∗ R3 ∗ R4 ∗ R5 ∗ owns (c : Thread nD τ) arg6 fullShare xs0 ∗ (∃ d, owns (c : Thread nD τ) arg7 fullShare d)
            ∗ (iprop(owns (c : Thread nD τ) arg2 fullShare x0 ∗ R3 ∗ R4 ∗ R5 ∗ owns (c : Thread nD τ) arg6 fullShare xs0 ∗ owns (c : Thread nD τ) arg7 fullShare (accFirst i x0 xs0)) -∗ K ⟨⟩))
          ⊢ wp frame (wpE (defs₀ (F := F)) Variants.none c none) E (cc0__body i arg2 harg2 arg3 harg3 arg4 harg4 arg5 harg5 arg6 harg6 arg7 harg7) K := by
  simp only [cc0__body_eq_skeleton]; unfold cc0__body_skel
  unfold owns
  iintro ⟨⟨%f0, %hf0, H0⟩, H3, H4, H5, ⟨%fs0, %hfs0, HS0⟩, ⟨%ds1, %fs1, -, HS1⟩, Hk⟩
  obtain rfl := harg2.eq_unread hf0; obtain rfl := harg6.eq_unread hfs0
  sl_exec (disch := first | exact hc1 | exact hc2 | exact hc3 | exact hc4)
  sl_step
  iapply Hk
  isplitl [H0]
  · iexists _; isplitr; · ipureintro; exact harg2.read_unread _
    iexact H0
  isplitl [H3]; · iexact H3
  isplitl [H4]; · iexact H4
  isplitl [H5]; · iexact H5
  isplitl [HS0]
  · iexists _; isplitr; · ipureintro; exact harg6.read_unread _
    iexact HS0
  iexists _; isplitr
  swap; · iexact HS1
  ipureintro
  rw [View.read_writes_eq_canon _ _ _ (fun y => ⟨_, List.mem_singleton_self _, View.mem_set_unit_zero hz2 inb_S136x4096_S136x4096_0_0 y⟩), View.canon_unit_zero hz2]
  simp only [View.readAt_eq_ld, harg2.read_unread, harg6.read_unread, View.ld_unit_zero (S := S512x4096) hz2]
  rfl

set_option maxHeartbeats 1000000 in
/-- The last point of a column half: the block product added, then the output block computed from the accumulator and stored. -/
theorem runC (hc1 : ¬condSetup i) (hc2 : ¬condFirst i) (hc3 : condAccum i) (hc4 : condLast i)
    (x0 : Vec F S512x4096 .i32) (x2 : Vec F S128x128 .f32) (xs0 : Vec F S136x8192 .bf16) (xs1 : Vec F S136x4096 .f32)
    (R3 : sProp 𝕄) (E : Set ℕ) (K : PUnit → sProp 𝕄) :
        iprop(owns (c : Thread nD τ) arg2 fullShare x0 ∗ R3 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ R3 ∗ owns (c : Thread nD τ) arg4 fullShare x2 ∗ owns (c : Thread nD τ) arg5 fullShare (outOf (accNext i x0 xs0 xs1) x2) ∗ owns (c : Thread nD τ) arg6 fullShare xs0 ∗ owns (c : Thread nD τ) arg7 fullShare (accNext i x0 xs0 xs1)) -∗ K ⟨⟩))
          ⊢ wp frame (wpE (defs₀ (F := F)) Variants.none c none) E (cc0__body i arg2 harg2 arg3 harg3 arg4 harg4 arg5 harg5 arg6 harg6 arg7 harg7) K := by
  simp only [cc0__body_eq_skeleton]; unfold cc0__body_skel
  unfold owns
  iintro ⟨⟨%f0, %hf0, H0⟩, H3, ⟨%f2, %hf2, H2⟩, ⟨%d3, %f3, -, HO⟩, ⟨%fs0, %hfs0, HS0⟩, ⟨%fs1, %hfs1, HS1⟩, Hk⟩
  obtain rfl := harg2.eq_unread hf0; obtain rfl := harg4.eq_unread hf2; obtain rfl := harg6.eq_unread hfs0; obtain rfl := harg7.eq_unread hfs1
  sl_exec (disch := first | exact hc1 | exact hc2 | exact hc3 | exact hc4)
  sl_step
  iapply Hk
  isplitl [H0]
  · iexists _; isplitr; · ipureintro; exact harg2.read_unread _
    iexact H0
  isplitl [H3]; · iexact H3
  isplitl [H2]
  · iexists _; isplitr; · ipureintro; exact harg4.read_unread _
    iexact H2
  isplitl [HO]
  · iexists _; isplitr
    swap; · iexact HO
    ipureintro
    rw [View.read_writes_eq_canon _ _ _ (fun y => ⟨_, List.mem_singleton_self _, View.mem_set_unit_zero hz2 inb_S4096x128_S4096x128_0_0 y⟩), View.canon_unit_zero hz2]
    unfold runC.sl.v20 runC.sl.v22 runC.sl.HS1_1
    rw [View.readCov_eq_canon_ld _ _ _ (fun y => ⟨_, List.mem_singleton_self _, View.mem_set_unit_zero hz2 inb_S136x4096_S136x4096_0_0 y⟩),
      View.readCov_eq_canon_ld _ _ _ (fun y => ⟨_, List.mem_singleton_self _, View.mem_set_unit_zero hz2 inb_S136x4096_S136x4096_0_0 y⟩), View.canon_unit_zero hz2]
    simp only [View.readAt_eq_ld, harg2.read_unread, harg4.read_unread, harg6.read_unread, harg7.read_unread, View.ld_unit_zero (S := S512x4096) hz2, View.ld_unit_zero (S := S136x4096) hz2, View.ld_unit_zero (S := S128x128) hz2]
    rfl
  isplitl [HS0]
  · iexists _; isplitr; · ipureintro; exact harg6.read_unread _
    iexact HS0
  iexists _; isplitr
  swap; · iexact HS1
  ipureintro
  unfold runC.sl.HS1_1
  rw [View.read_writes_eq_canon _ _ _ (fun y => ⟨_, List.mem_singleton_self _, View.mem_set_unit_zero hz2 inb_S136x4096_S136x4096_0_0 y⟩), View.canon_unit_zero hz2]
  simp only [View.readAt_eq_ld, harg2.read_unread, harg6.read_unread, harg7.read_unread, View.ld_unit_zero (S := S512x4096) hz2, View.ld_unit_zero (S := S136x4096) hz2]
  rfl

/-- The scratch after the first point, whatever it held before: the feature block transposed in rows 0..127 (the first
    store), a row of ones (the second), seven zero rows (the third). -/
def xhSetup (x1 : Vec F S8192x128 .f32) : Vec F S136x8192 .bf16 := SetupRows.setupRows (k0_pay1 x1) (k0_pay2 (F := F)) (k0_pay3 (F := F))

set_option maxHeartbeats 2000000 in
/-- The grid's first point: the scratch filled, the accumulator stored afresh. -/
theorem runA (hc1 : condSetup i) (hc2 : condFirst i) (hc3 : ¬condAccum i) (hc4 : ¬condLast i)
    (x0 : Vec F S512x4096 .i32) (x1 : Vec F S8192x128 .f32)
    (R4 R5 : sProp 𝕄) (E : Set ℕ) (K : PUnit → sProp 𝕄) :
        iprop(owns (c : Thread nD τ) arg2 fullShare x0 ∗ owns (c : Thread nD τ) arg3 fullShare x1 ∗ R4 ∗ R5 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ R4 ∗ R5 ∗ owns (c : Thread nD τ) arg6 fullShare (xhSetup x1) ∗ owns (c : Thread nD τ) arg7 fullShare (accFirst i x0 (xhSetup x1))) -∗ K ⟨⟩))
          ⊢ wp frame (wpE (defs₀ (F := F)) Variants.none c none) E (cc0__body i arg2 harg2 arg3 harg3 arg4 harg4 arg5 harg5 arg6 harg6 arg7 harg7) K := by
  simp only [cc0__body_eq_skeleton]; unfold cc0__body_skel
  unfold owns
  iintro ⟨⟨%f0, %hf0, H0⟩, ⟨%f1, %hf1, H1⟩, H4, H5, ⟨%ds0, %fs0, -, HS0⟩, ⟨%ds1, %fs1, -, HS1⟩, Hk⟩
  obtain rfl := harg2.eq_unread hf0; obtain rfl := harg3.eq_unread hf1
  sl_exec (disch := first | exact hc1 | exact hc2 | exact hc3 | exact hc4)
  sl_step
  have hXH : View.read (Elt F) arg6.view (arg6.view.writes (Elt F) arg6.view.junk (runA.sl.HS0_3 c arg3 harg3 arg6 x1 fs0)) = xhSetup x1 := by
    have e1 : View.readAt (Elt F) arg3.view (Rect.unit (s := S8192x128) ![0, 0] S8192x128.size inb_S8192x128_S8192x128_0_0).toLoadRect (harg3.unread x1) = x1 := by
      rw [View.readAt_eq_ld, harg3.read_unread, View.ld_unit_zero (S := S8192x128) hz2]
    unfold runA.sl.HS0_3 runA.sl.HS0_2 runA.sl.old
    rw [e1]
    exact setup_read _ _ _ _ _
  iapply Hk
  isplitl [H0]
  · iexists _; isplitr; · ipureintro; exact harg2.read_unread _
    iexact H0
  isplitl [H1]
  · iexists _; isplitr; · ipureintro; exact harg3.read_unread _
    iexact H1
  isplitl [H4]; · iexact H4
  isplitl [H5]; · iexact H5
  isplitl [HS0]
  · iexists _; isplitr
    swap; · iexact HS0
    ipureintro; exact hXH
  iexists _; isplitr
  swap; · iexact HS1
  ipureintro
  rw [View.read_writes_eq_canon _ _ _ (fun y => ⟨_, List.mem_singleton_self _, View.mem_set_unit_zero hz2 inb_S136x4096_S136x4096_0_0 y⟩), View.canon_unit_zero hz2]
  unfold runA.sl.v9
  simp only [View.readAt_eq_ld, harg2.read_unread, View.ld_unit_zero (S := S512x4096) hz2, hXH]
  rfl

end Cert.Kernel.Gen

end
-- ==== Proof.BitsFrame.lean ====
import proofs.«178046_g24824910970967_cont_8to1_1833_20_alg».proof.Proof.BitsBody

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Off the last contraction block the output window is idle and not written back. -/
theorem idleAt0_3 : ∀ t : Fin cfg0.N, ¬condLast (grid0.coords t) → cfg0.idle 3 (grid0.coords t) = true := by decide +kernel
theorem noFlush0_3 : ∀ t : Fin cfg0.N, ¬condLast (grid0.coords t) → (cfg0.win 3).flush t = false := by decide +kernel
/-- At the last contraction block it is live. -/
theorem liveAt0_3 : ∀ t : Fin cfg0.N, condLast (grid0.coords t) → cfg0.idle 3 (grid0.coords t) = false := by decide +kernel

/-! ## The memrefs the body is called with -/

abbrev ms0_0 (t : Fin cfg0.N) : Memref sig .tc .vmem S512x4096 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x128 .f32 := win0_3.stage (cfg0.slots t 3)
abbrev hs0_3 (t : Fin cfg0.N) : (ms0_3 t).IsWhole := hstage0_3 ((cfg0.slots t 3).cast nbuf0_3)
abbrev scM0_0 : Memref sig .tc .vmem S136x8192 .bf16 := Memref.whole cc0_scratch0
abbrev scM0_1 : Memref sig .tc .vmem S136x4096 .f32 := Memref.whole cc0_scratch1

/-- The region's invariant with the two scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What the scratch buffers and the output hold after each point -/

/-- The grid's first point. -/
abbrev t₀ : Fin cfg0.N := ⟨0, Nat.lt_of_lt_of_eq (by omega : 0 < 32) N_0.symm⟩

/-- The transposed-feature scratch from the first point on: the feature array transposed, a row of ones, zero rows. -/
def XH (c : Dev nD) : Vec F S136x8192 .bf16 := xhSetup (iblk m c 1 t₀)

theorem XH_eq (c : Dev nD) (t : Fin cfg0.N) (hz : t.val = 0) : XH m c = xhSetup (iblk m c 1 t) := by
  obtain ⟨n, hn⟩ := t
  cases n with
  | zero => rfl
  | succ n => exact absurd hz (Nat.succ_ne_zero n)

/-- THE ACCUMULATION. The accumulator after the point at position `n`: the block product of the point at the first
    contraction block of a column half, the accumulator of the point before plus the block product elsewhere. -/
def accAt (c : Dev nD) : (n : ℕ) → n < cfg0.N → Vec F S136x4096 .f32
  | 0, hn => accFirst (grid0.coords ⟨0, hn⟩) (iblk m c 0 ⟨0, hn⟩) (XH m c)
  | n + 1, hn =>
    if (n + 1) % 16 = 0 then accFirst (grid0.coords ⟨n + 1, hn⟩) (iblk m c 0 ⟨n + 1, hn⟩) (XH m c)
    else accNext (grid0.coords ⟨n + 1, hn⟩) (iblk m c 0 ⟨n + 1, hn⟩) (XH m c) (accAt c n (Nat.lt_of_succ_lt hn))

theorem accAt_first (c : Dev nD) (t : Fin cfg0.N) (h : t.val % 16 = 0) :
    accAt m c t.val t.isLt = accFirst (grid0.coords t) (iblk m c 0 t) (XH m c) := by
  obtain ⟨n, hn⟩ := t
  cases n with
  | zero => rfl
  | succ n => exact if_pos h

theorem accAt_next (c : Dev nD) (t : Fin cfg0.N) (h : ¬t.val % 16 = 0) :
    accAt m c t.val t.isLt = accNext (grid0.coords t) (iblk m c 0 t) (XH m c) (accAt m c (t.val - 1) (Nat.lt_of_le_of_lt (Nat.sub_le _ _) t.isLt)) := by
  obtain ⟨n, hn⟩ := t
  cases n with
  | zero => exact absurd (Nat.zero_mod _) h
  | succ n => exact (if_neg h).trans rfl

/-- The output block a point would store from the accumulator it leaves (stored at the last contraction block only). -/
def outAt (c : Dev nD) (t : Fin cfg0.N) : Vec F S4096x128 .f32 := outOf (accAt m c t.val t.isLt) (iblk m c 2 t)

/-- The region invariant before position `n`: before the first point the scratch buffers at anything; afterwards the
    transposed-feature scratch at its filled contents and the accumulator at what the point before left. -/
def PhiS (c : Dev nD) : (n : ℕ) → n ≤ cfg0.N → sProp 𝕄
  | 0, _ => Pipeline.ΦA spec0 c
  | n + 1, hn => iprop(iprop(owns (c : Thread nD τ) scM0_0 fullShare (XH m c) ∗ owns (c : Thread nD τ) scM0_1 fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (XH m c) ∗ owns (c : Thread nD τ) scM0_1 fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (XH m c) ∗ owns (c : Thread nD τ) scM0_1 fullShare (accAt m c (n - 1) (by omega))) ∗ (∃ r, prngReg c r)) := by
  cases n with
  | zero => exact absurd rfl hz
  | succ n => rfl

/-! ## The pipeline's proof data -/

/-- The proof data of the one pipeline on core `c`: the arrays as the region finds them; after the body at point `t`
    each input's buffer at its block and the output's at the block computed from the accumulator; the invariant above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the case the point is in is read off the closed forms of the conditions; the invariant hands
    the body the scratch buffers at what the point before left (at anything before the first point) and takes them back
    at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases hz : t.val = 0
  · have h1 : condSetup (grid0.coords t) := (hcondSetup t).mpr hz
    have h2 : condFirst (grid0.coords t) := (hcondFirst t).mpr (by omega)
    have h3 : ¬condAccum (grid0.coords t) := fun h => (hcondAccum t).mp h (by omega)
    have h4 : ¬condLast (grid0.coords t) := fun h => by have := (hcondLast t).mp h; omega
    rw [Dat.leavesExact_idle (dats m 0 c) 3 t (idleAt0_3 t h4) (noFlush0_3 t h4)]
    rw [accAt_first m c t (by omega), XH_eq m c t hz]
    rw [PhiS_castSucc m c t, PhiS_zero m c _ _ hz, PhiA0_eq]
    iintro ⟨⟨⟨HS0, HS1⟩, Hg⟩, Ho, ⟨%d0, H0⟩, ⟨%d1, H1⟩, ⟨%d2, H2⟩, ⟨%d3, H3⟩⟩
    iapply (runA c (grid0.coords t) (ms0_0 t) (hs0_0 t) (ms0_1 t) (hs0_1 t) (ms0_2 t) (hs0_2 t) (ms0_3 t) (hs0_3 t) scM0_0 (Memref.isWhole_whole _) scM0_1 (Memref.isWhole_whole _) h1 h2 h3 h4 (iblk m c 0 t) (iblk m c 1 t) _ _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    iexists _; iexact H3
  · rw [PhiS_castSucc m c t, PhiS_pos m c _ _ hz]
    have h1 : ¬condSetup (grid0.coords t) := fun h => hz ((hcondSetup t).mp h)
    by_cases h0 : t.val % 16 = 0
    · have h2 : condFirst (grid0.coords t) := (hcondFirst t).mpr h0
      have h3 : ¬condAccum (grid0.coords t) := fun h => (hcondAccum t).mp h h0
      have h4 : ¬condLast (grid0.coords t) := fun h => by have := (hcondLast t).mp h; omega
      rw [Dat.leavesExact_idle (dats m 0 c) 3 t (idleAt0_3 t h4) (noFlush0_3 t h4)]
      rw [accAt_first m c t h0]
      iintro ⟨⟨⟨HS0, HS1⟩, Hg⟩, Ho, ⟨%d0, H0⟩, ⟨%d1, H1⟩, ⟨%d2, H2⟩, ⟨%d3, H3⟩⟩
      iapply (runD c (grid0.coords t) (ms0_0 t) (hs0_0 t) (ms0_1 t) (hs0_1 t) (ms0_2 t) (hs0_2 t) (ms0_3 t) (hs0_3 t) scM0_0 (Memref.isWhole_whole _) scM0_1 (Memref.isWhole_whole _) h1 h2 h3 h4 (iblk m c 0 t) (XH m c) _ _ _ Set.univ _)
      isplitl [H0]; · iexact H0
      isplitl [H1]; · iexact H1
      isplitl [H2]; · iexact H2
      isplitl [H3]; · iexact H3
      isplitl [HS0]; · iexact HS0
      isplitl [HS1]; · iexists _; iexact HS1
      iintro ⟨H0, H1, H2, H3, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      iexists _; iexact H3
    · have h2 : ¬condFirst (grid0.coords t) := fun h => h0 ((hcondFirst t).mp h)
      have h3 : condAccum (grid0.coords t) := (hcondAccum t).mpr h0
      by_cases h15 : t.val % 16 = 15
      · have h4 : condLast (grid0.coords t) := (hcondLast t).mpr h15
        rw [show (dats m 0 c).leavesExact 3 t = owns (c : Thread nD τ) (ms0_3 t) fullShare ((dats m 0 c).after 3 t) from by
          unfold Dat.leavesExact; rw [liveAt0_3 t h4], after0_3]
        unfold outAt
        rw [accAt_next m c t h0]
        iintro ⟨⟨⟨HS0, HS1⟩, Hg⟩, Ho, ⟨%d0, H0⟩, ⟨%d1, H1⟩, ⟨%d2, H2⟩, ⟨%d3, H3⟩⟩
        iapply (runC c (grid0.coords t) (ms0_0 t) (hs0_0 t) (ms0_1 t) (hs0_1 t) (ms0_2 t) (hs0_2 t) (ms0_3 t) (hs0_3 t) scM0_0 (Memref.isWhole_whole _) scM0_1 (Memref.isWhole_whole _) h1 h2 h3 h4 (iblk m c 0 t) (iblk m c 2 t) (XH m c) _ _ Set.univ _)
        isplitl [H0]; · iexact H0
        isplitl [H1]; · iexact H1
        isplitl [H2]; · iexact H2
        isplitl [H3]; · iexists _; iexact H3
        isplitl [HS0]; · iexact HS0
        isplitl [HS1]; · iexact HS1
        iintro ⟨H0, H1, H2, H3, HS0, HS1⟩
        isplitl [HS0 HS1 Hg]
        · isplitl [HS0 HS1]
          · isplitl [HS0]; · iexact HS0
            iexact HS1
          iexact Hg
        isplitl [Ho]; · iexact Ho
        isplitl [H0]; · iexact H0
        isplitl [H1]; · iexact H1
        isplitl [H2]; · iexact H2
        iexact H3
      · have h4 : ¬condLast (grid0.coords t) := fun h => h15 ((hcondLast t).mp h)
        rw [Dat.leavesExact_idle (dats m 0 c) 3 t (idleAt0_3 t h4) (noFlush0_3 t h4)]
        rw [accAt_next m c t h0]
        iintro ⟨⟨⟨HS0, HS1⟩, Hg⟩, Ho, ⟨%d0, H0⟩, ⟨%d1, H1⟩, ⟨%d2, H2⟩, ⟨%d3, H3⟩⟩
        iapply (runB c (grid0.coords t) (ms0_0 t) (hs0_0 t) (ms0_1 t) (hs0_1 t) (ms0_2 t) (hs0_2 t) (ms0_3 t) (hs0_3 t) scM0_0 (Memref.isWhole_whole _) scM0_1 (Memref.isWhole_whole _) h1 h2 h3 h4 (iblk m c 0 t) (XH m c) _ _ _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, HS0, HS1⟩
        isplitl [HS0 HS1 Hg]
        · isplitl [HS0 HS1]
          · isplitl [HS0]; · iexact HS0
            iexact HS1
          iexact Hg
        isplitl [Ho]; · iexact Ho
        isplitl [H0]; · iexact H0
        isplitl [H1]; · iexact H1
        isplitl [H2]; · iexact H2
        iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- Every weakly fair execution of @main terminates without a fault, every array of the pipeline ending at what the
    library computes from the proof data. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The frame: the program runs to the end, faults nowhere, and leaves its argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Gen

end
-- ==== Proof.IdealBody.lean ====
import proofs.«178046_g24824910970967_cont_8to1_1833_20_alg».proof.Proof.Gen.KernelIdeal.Frame
import proofs.«178046_g24824910970967_cont_8to1_1833_20_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic
import Idealize.ShloMosaic.Lib.ValueIdx
import proofs.«178046_g24824910970967_cont_8to1_1833_20_alg».proof.Proof.LibSetupRows

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, decided over the grid -/

/-- The first branch (filling the transposed-feature scratch) is taken at the grid's first point only. -/
abbrev condSetup (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The second branch (the accumulator stored afresh) is taken where the contraction block is the first. -/
abbrev condFirst (i : grid0.Coords) : Prop := (Scalar.cmpi .ne (Scalar.extui (Scalar.cmpi .eq (BitVec.ofNat 32 (i 1).val) 0#32)) 0#32) = 1#1
/-- The third branch (the accumulator added to) is taken at every later contraction block. -/
abbrev condAccum (i : grid0.Coords) : Prop := (Scalar.cmpi .ne (Scalar.extui (Scalar.cmpi .sgt (BitVec.ofNat 32 (i 1).val) 0#32)) 0#32) = 1#1
/-- The fourth branch (the output block computed and stored) is taken at the last contraction block. -/
abbrev condLast (i : grid0.Coords) : Prop := k0_cond4 i = 1#1

theorem hcondSetup : ∀ t : Fin cfg0.N, condSetup (grid0.coords t) ↔ t.val = 0 :=
  (by decide +kernel : ∀ t : Fin grid0.N, condSetup (grid0.coords t) ↔ t.val = 0)
theorem hcondFirst : ∀ t : Fin cfg0.N, condFirst (grid0.coords t) ↔ t.val % 16 = 0 :=
  (by decide +kernel : ∀ t : Fin grid0.N, condFirst (grid0.coords t) ↔ t.val % 16 = 0)
theorem hcondAccum : ∀ t : Fin cfg0.N, condAccum (grid0.coords t) ↔ ¬ t.val % 16 = 0 :=
  (by decide +kernel : ∀ t : Fin grid0.N, condAccum (grid0.coords t) ↔ ¬ t.val % 16 = 0)
theorem hcondLast : ∀ t : Fin cfg0.N, condLast (grid0.coords t) ↔ t.val % 16 = 15 :=
  (by decide +kernel : ∀ t : Fin grid0.N, condLast (grid0.coords t) ↔ t.val % 16 = 15)

theorem hz2 : (![0, 0] : Fin 2 → ℕ) = fun _ => 0 := by funext a; fin_cases a <;> rfl

/-- The column block of the transposed-feature scratch the point multiplies: rows all, columns `512 k …`. -/
abbrev xhRect (i : grid0.Coords) : Rect S136x8192 := Rect.unit (s := S136x8192) (k0_off1 i) S136x512.size (k0_off1_inb i)
/-- The accumulator's feature rows, and its row of column sums. -/
abbrev accRows : Rect S136x4096 := Rect.unit (s := S136x4096) ![0, 0] S128x4096.size inb_S136x4096_S128x4096_0_0
abbrev accDeg : Rect S136x4096 := Rect.unit (s := S136x4096) ![128, 0] S1x4096.size inb_S136x4096_S1x4096_128_0

/-- What a point after the first of its column half leaves in the accumulator: the block product added. -/
def accNext (i : grid0.Coords) (x0 : Vec F S512x4096 .i32) (xs0 : Vec F S136x8192 .bf16) (xs1 : Vec F S136x4096 .f32) : Vec F S136x4096 .f32 :=
  k0_pay6 x0 (View.ld xs0 (xhRect i)) xs1
/-- What the first point of a column half leaves in the accumulator: the block product. -/
def accFirst (i : grid0.Coords) (x0 : Vec F S512x4096 .i32) (xs0 : Vec F S136x8192 .bf16) : Vec F S136x4096 .f32 :=
  k0_pay5 x0 (View.ld xs0 (xhRect i))
/-- The output block the last point of a column half stores, from the accumulator it leaves and the mixing matrix. -/
def outOf (acc : Vec F S136x4096 .f32) (x2 : Vec F S128x128 .f32) : Vec F S4096x128 .f32 :=
  k0_pay7 (View.ld acc accRows) (View.ld acc accDeg) x2

/-- The three stores of the first point, as the body makes them — rows 0..127 whole, then row 128 through the two rows
    of its words, then rows 129..135 through the eight rows of theirs, each partial store a blend of what it loaded —
    leave the first store's rows, the second's row and the third's rows, whatever the buffer held. -/
theorem setup_read {sig' : RefSig} {κ : Kind} {sp : Space} (v : View sig' κ sp S136x8192 .bf16) (fs0 : v.ty.Contents (Elt F))
    (w1 : S128x8192.Idx → Elt F .bf16) (w2 : S1x8192.Idx → Elt F .bf16) (w3 : S7x8192.Idx → Elt F .bf16) :
    View.read (Elt F) v (v.writes (Elt F) v.junk
      ((⟨Rect.unit (s := S136x8192) ![128, 0] S8x8192.size inb_S136x8192_S8x8192_128_0,
          (fun old => updateSlice old w3 ![1, 0] slices_S8x8192_S7x8192_1_0)
            (View.readAt (Elt F) v (Rect.unit (s := S136x8192) ![128, 0] S8x8192.size inb_S136x8192_S8x8192_128_0).toLoadRect
              (v.writes (Elt F) fs0
                [⟨Rect.unit (s := S136x8192) ![128, 0] S2x8192.size inb_S136x8192_S2x8192_128_0,
                    (fun old => updateSlice old w2 ![0, 0] slices_S2x8192_S1x8192_0_0)
                      (View.readAt (Elt F) v (Rect.unit (s := S136x8192) ![128, 0] S2x8192.size inb_S136x8192_S2x8192_128_0).toLoadRect fs0)⟩,
                  ⟨Rect.unit (s := S136x8192) ![0, 0] S128x8192.size inb_S136x8192_S128x8192_0_0, w1⟩]))⟩ : View.Piece (Elt F) S136x8192 .bf16)
        :: [⟨Rect.unit (s := S136x8192) ![128, 0] S2x8192.size inb_S136x8192_S2x8192_128_0,
              (fun old => updateSlice old w2 ![0, 0] slices_S2x8192_S1x8192_0_0)
                (View.readAt (Elt F) v (Rect.unit (s := S136x8192) ![128, 0] S2x8192.size inb_S136x8192_S2x8192_128_0).toLoadRect fs0)⟩,
            ⟨Rect.unit (s := S136x8192) ![0, 0] S128x8192.size inb_S136x8192_S128x8192_0_0, w1⟩]))
      = SetupRows.setupRows w1 w2 w3 := by
  exact SetupRows.read_writes_setup v inb_S136x8192_S128x8192_0_0 inb_S136x8192_S2x8192_128_0 inb_S136x8192_S8x8192_128_0 slices_S2x8192_S1x8192_0_0 slices_S8x8192_S7x8192_1_0 w1 w2 w3 fs0

variable (c : Dev nD) (i : grid0.Coords) (arg2 : Memref sig .tc .vmem S512x4096 .i32) (harg2 : arg2.IsWhole) (arg3 : Memref sig .tc .vmem S8192x128 .f32) (harg3 : arg3.IsWhole) (arg4 : Memref sig .tc .vmem S128x128 .f32) (harg4 : arg4.IsWhole) (arg5 : Memref sig .tc .vmem S4096x128 .f32) (harg5 : arg5.IsWhole) (arg6 : Memref sig .tc .vmem S136x8192 .bf16) (harg6 : arg6.IsWhole) (arg7 : Memref sig .tc .vmem S136x4096 .f32) (harg7 : arg7.IsWhole)

set_option maxHeartbeats 1000000 in
/-- A point that only adds its block product to the accumulator. -/
theorem runB (hc1 : ¬condSetup i) (hc2 : ¬condFirst i) (hc3 : condAccum i) (hc4 : ¬condLast i)
    (x0 : Vec F S512x4096 .i32) (xs0 : Vec F S136x8192 .bf16) (xs1 : Vec F S136x4096 .f32)
    (R3 R4 R5 : sProp 𝕄) (E : Set ℕ) (K : PUnit → sProp 𝕄) :
        iprop(owns (c : Thread nD τ) arg2 fullShare x0 ∗ R3 ∗ R4 ∗ R5 ∗ owns (c : Thread nD τ) arg6 fullShare xs0 ∗ owns (c : Thread nD τ) arg7 fullShare xs1
            ∗ (iprop(owns (c : Thread nD τ) arg2 fullShare x0 ∗ R3 ∗ R4 ∗ R5 ∗ owns (c : Thread nD τ) arg6 fullShare xs0 ∗ owns (c : Thread nD τ) arg7 fullShare (accNext i x0 xs0 xs1)) -∗ K ⟨⟩))
          ⊢ wp frame (wpE (defs₀ (F := F)) Variants.none c none) E (cc0__body i arg2 harg2 arg3 harg3 arg4 harg4 arg5 harg5 arg6 harg6 arg7 harg7) K := by
  simp only [cc0__body_eq_skeleton]; unfold cc0__body_skel
  unfold owns
  iintro ⟨⟨%f0, %hf0, H0⟩, H3, H4, H5, ⟨%fs0, %hfs0, HS0⟩, ⟨%fs1, %hfs1, HS1⟩, Hk⟩
  obtain rfl := harg2.eq_unread hf0; obtain rfl := harg6.eq_unread hfs0; obtain rfl := harg7.eq_unread hfs1
  sl_exec (disch := first | exact hc1 | exact hc2 | exact hc3 | exact hc4)
  sl_step
  iapply Hk
  isplitl [H0]
  · iexists _; isplitr; · ipureintro; exact harg2.read_unread _
    iexact H0
  isplitl [H3]; · iexact H3
  isplitl [H4]; · iexact H4
  isplitl [H5]; · iexact H5
  isplitl [HS0]
  · iexists _; isplitr; · ipureintro; exact harg6.read_unread _
    iexact HS0
  iexists _; isplitr
  swap; · iexact HS1
  ipureintro
  rw [View.read_writes_eq_canon _ _ _ (fun y => ⟨_, List.mem_singleton_self _, View.mem_set_unit_zero hz2 inb_S136x4096_S136x4096_0_0 y⟩), View.canon_unit_zero hz2]
  simp only [View.readAt_eq_ld, harg2.read_unread, harg6.read_unread, harg7.read_unread, View.ld_unit_zero (S := S512x4096) hz2, View.ld_unit_zero (S := S136x4096) hz2]
  rfl

set_option maxHeartbeats 1000000 in
/-- The first point of the second column half: the accumulator stored afresh, nothing else. -/
theorem runD (hc1 : ¬condSetup i) (hc2 : condFirst i) (hc3 : ¬condAccum i) (hc4 : ¬condLast i)
    (x0 : Vec F S512x4096 .i32) (xs0 : Vec F S136x8192 .bf16)
    (R3 R4 R5 : sProp 𝕄) (E : Set ℕ) (K : PUnit → sProp 𝕄) :
        iprop(owns (c : Thread nD τ) arg2 fullShare x0 ∗ R3 ∗ R4 ∗ R5 ∗ owns (c : Thread nD τ) arg6 fullShare xs0 ∗ (∃ d, owns (c : Thread nD τ) arg7 fullShare d)
            ∗ (iprop(owns (c : Thread nD τ) arg2 fullShare x0 ∗ R3 ∗ R4 ∗ R5 ∗ owns (c : Thread nD τ) arg6 fullShare xs0 ∗ owns (c : Thread nD τ) arg7 fullShare (accFirst i x0 xs0)) -∗ K ⟨⟩))
          ⊢ wp frame (wpE (defs₀ (F := F)) Variants.none c none) E (cc0__body i arg2 harg2 arg3 harg3 arg4 harg4 arg5 harg5 arg6 harg6 arg7 harg7) K := by
  simp only [cc0__body_eq_skeleton]; unfold cc0__body_skel
  unfold owns
  iintro ⟨⟨%f0, %hf0, H0⟩, H3, H4, H5, ⟨%fs0, %hfs0, HS0⟩, ⟨%ds1, %fs1, -, HS1⟩, Hk⟩
  obtain rfl := harg2.eq_unread hf0; obtain rfl := harg6.eq_unread hfs0
  sl_exec (disch := first | exact hc1 | exact hc2 | exact hc3 | exact hc4)
  sl_step
  iapply Hk
  isplitl [H0]
  · iexists _; isplitr; · ipureintro; exact harg2.read_unread _
    iexact H0
  isplitl [H3]; · iexact H3
  isplitl [H4]; · iexact H4
  isplitl [H5]; · iexact H5
  isplitl [HS0]
  · iexists _; isplitr; · ipureintro; exact harg6.read_unread _
    iexact HS0
  iexists _; isplitr
  swap; · iexact HS1
  ipureintro
  rw [View.read_writes_eq_canon _ _ _ (fun y => ⟨_, List.mem_singleton_self _, View.mem_set_unit_zero hz2 inb_S136x4096_S136x4096_0_0 y⟩), View.canon_unit_zero hz2]
  simp only [View.readAt_eq_ld, harg2.read_unread, harg6.read_unread, View.ld_unit_zero (S := S512x4096) hz2]
  rfl

set_option maxHeartbeats 1000000 in
/-- The last point of a column half: the block product added, then the output block computed from the accumulator and stored. -/
theorem runC (hc1 : ¬condSetup i) (hc2 : ¬condFirst i) (hc3 : condAccum i) (hc4 : condLast i)
    (x0 : Vec F S512x4096 .i32) (x2 : Vec F S128x128 .f32) (xs0 : Vec F S136x8192 .bf16) (xs1 : Vec F S136x4096 .f32)
    (R3 : sProp 𝕄) (E : Set ℕ) (K : PUnit → sProp 𝕄) :
        iprop(owns (c : Thread nD τ) arg2 fullShare x0 ∗ R3 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ R3 ∗ owns (c : Thread nD τ) arg4 fullShare x2 ∗ owns (c : Thread nD τ) arg5 fullShare (outOf (accNext i x0 xs0 xs1) x2) ∗ owns (c : Thread nD τ) arg6 fullShare xs0 ∗ owns (c : Thread nD τ) arg7 fullShare (accNext i x0 xs0 xs1)) -∗ K ⟨⟩))
          ⊢ wp frame (wpE (defs₀ (F := F)) Variants.none c none) E (cc0__body i arg2 harg2 arg3 harg3 arg4 harg4 arg5 harg5 arg6 harg6 arg7 harg7) K := by
  simp only [cc0__body_eq_skeleton]; unfold cc0__body_skel
  unfold owns
  iintro ⟨⟨%f0, %hf0, H0⟩, H3, ⟨%f2, %hf2, H2⟩, ⟨%d3, %f3, -, HO⟩, ⟨%fs0, %hfs0, HS0⟩, ⟨%fs1, %hfs1, HS1⟩, Hk⟩
  obtain rfl := harg2.eq_unread hf0; obtain rfl := harg4.eq_unread hf2; obtain rfl := harg6.eq_unread hfs0; obtain rfl := harg7.eq_unread hfs1
  sl_exec (disch := first | exact hc1 | exact hc2 | exact hc3 | exact hc4)
  sl_step
  iapply Hk
  isplitl [H0]
  · iexists _; isplitr; · ipureintro; exact harg2.read_unread _
    iexact H0
  isplitl [H3]; · iexact H3
  isplitl [H2]
  · iexists _; isplitr; · ipureintro; exact harg4.read_unread _
    iexact H2
  isplitl [HO]
  · iexists _; isplitr
    swap; · iexact HO
    ipureintro
    rw [View.read_writes_eq_canon _ _ _ (fun y => ⟨_, List.mem_singleton_self _, View.mem_set_unit_zero hz2 inb_S4096x128_S4096x128_0_0 y⟩), View.canon_unit_zero hz2]
    unfold runC.sl.v20 runC.sl.v22 runC.sl.HS1_1
    rw [View.readCov_eq_canon_ld _ _ _ (fun y => ⟨_, List.mem_singleton_self _, View.mem_set_unit_zero hz2 inb_S136x4096_S136x4096_0_0 y⟩),
      View.readCov_eq_canon_ld _ _ _ (fun y => ⟨_, List.mem_singleton_self _, View.mem_set_unit_zero hz2 inb_S136x4096_S136x4096_0_0 y⟩), View.canon_unit_zero hz2]
    simp only [View.readAt_eq_ld, harg2.read_unread, harg4.read_unread, harg6.read_unread, harg7.read_unread, View.ld_unit_zero (S := S512x4096) hz2, View.ld_unit_zero (S := S136x4096) hz2, View.ld_unit_zero (S := S128x128) hz2]
    rfl
  isplitl [HS0]
  · iexists _; isplitr; · ipureintro; exact harg6.read_unread _
    iexact HS0
  iexists _; isplitr
  swap; · iexact HS1
  ipureintro
  unfold runC.sl.HS1_1
  rw [View.read_writes_eq_canon _ _ _ (fun y => ⟨_, List.mem_singleton_self _, View.mem_set_unit_zero hz2 inb_S136x4096_S136x4096_0_0 y⟩), View.canon_unit_zero hz2]
  simp only [View.readAt_eq_ld, harg2.read_unread, harg6.read_unread, harg7.read_unread, View.ld_unit_zero (S := S512x4096) hz2, View.ld_unit_zero (S := S136x4096) hz2]
  rfl

/-- The scratch after the first point, whatever it held before: the feature block transposed in rows 0..127 (the first
    store), a row of ones (the second), seven zero rows (the third). -/
def xhSetup (x1 : Vec F S8192x128 .f32) : Vec F S136x8192 .bf16 := SetupRows.setupRows (k0_pay1 x1) (k0_pay2 (F := F)) (k0_pay3 (F := F))

set_option maxHeartbeats 2000000 in
/-- The grid's first point: the scratch filled, the accumulator stored afresh. -/
theorem runA (hc1 : condSetup i) (hc2 : condFirst i) (hc3 : ¬condAccum i) (hc4 : ¬condLast i)
    (x0 : Vec F S512x4096 .i32) (x1 : Vec F S8192x128 .f32)
    (R4 R5 : sProp 𝕄) (E : Set ℕ) (K : PUnit → sProp 𝕄) :
        iprop(owns (c : Thread nD τ) arg2 fullShare x0 ∗ owns (c : Thread nD τ) arg3 fullShare x1 ∗ R4 ∗ R5 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ R4 ∗ R5 ∗ owns (c : Thread nD τ) arg6 fullShare (xhSetup x1) ∗ owns (c : Thread nD τ) arg7 fullShare (accFirst i x0 (xhSetup x1))) -∗ K ⟨⟩))
          ⊢ wp frame (wpE (defs₀ (F := F)) Variants.none c none) E (cc0__body i arg2 harg2 arg3 harg3 arg4 harg4 arg5 harg5 arg6 harg6 arg7 harg7) K := by
  simp only [cc0__body_eq_skeleton]; unfold cc0__body_skel
  unfold owns
  iintro ⟨⟨%f0, %hf0, H0⟩, ⟨%f1, %hf1, H1⟩, H4, H5, ⟨%ds0, %fs0, -, HS0⟩, ⟨%ds1, %fs1, -, HS1⟩, Hk⟩
  obtain rfl := harg2.eq_unread hf0; obtain rfl := harg3.eq_unread hf1
  sl_exec (disch := first | exact hc1 | exact hc2 | exact hc3 | exact hc4)
  sl_step
  have hXH : View.read (Elt F) arg6.view (arg6.view.writes (Elt F) arg6.view.junk (runA.sl.HS0_3 c arg3 harg3 arg6 x1 fs0)) = xhSetup x1 := by
    have e1 : View.readAt (Elt F) arg3.view (Rect.unit (s := S8192x128) ![0, 0] S8192x128.size inb_S8192x128_S8192x128_0_0).toLoadRect (harg3.unread x1) = x1 := by
      rw [View.readAt_eq_ld, harg3.read_unread, View.ld_unit_zero (S := S8192x128) hz2]
    unfold runA.sl.HS0_3 runA.sl.HS0_2 runA.sl.old
    rw [e1]
    exact setup_read _ _ _ _ _
  iapply Hk
  isplitl [H0]
  · iexists _; isplitr; · ipureintro; exact harg2.read_unread _
    iexact H0
  isplitl [H1]
  · iexists _; isplitr; · ipureintro; exact harg3.read_unread _
    iexact H1
  isplitl [H4]; · iexact H4
  isplitl [H5]; · iexact H5
  isplitl [HS0]
  · iexists _; isplitr
    swap; · iexact HS0
    ipureintro; exact hXH
  iexists _; isplitr
  swap; · iexact HS1
  ipureintro
  rw [View.read_writes_eq_canon _ _ _ (fun y => ⟨_, List.mem_singleton_self _, View.mem_set_unit_zero hz2 inb_S136x4096_S136x4096_0_0 y⟩), View.canon_unit_zero hz2]
  unfold runA.sl.v9
  simp only [View.readAt_eq_ld, harg2.read_unread, View.ld_unit_zero (S := S512x4096) hz2, hXH]
  rfl

end Cert.KernelIdeal.Gen

end
-- ==== Proof.IdealFrame.lean ====
import proofs.«178046_g24824910970967_cont_8to1_1833_20_alg».proof.Proof.IdealBody

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Off the last contraction block the output window is idle and not written back. -/
theorem idleAt0_3 : ∀ t : Fin cfg0.N, ¬condLast (grid0.coords t) → cfg0.idle 3 (grid0.coords t) = true := by decide +kernel
theorem noFlush0_3 : ∀ t : Fin cfg0.N, ¬condLast (grid0.coords t) → (cfg0.win 3).flush t = false := by decide +kernel
/-- At the last contraction block it is live. -/
theorem liveAt0_3 : ∀ t : Fin cfg0.N, condLast (grid0.coords t) → cfg0.idle 3 (grid0.coords t) = false := by decide +kernel

/-! ## The memrefs the body is called with -/

abbrev ms0_0 (t : Fin cfg0.N) : Memref sig .tc .vmem S512x4096 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x128 .f32 := win0_3.stage (cfg0.slots t 3)
abbrev hs0_3 (t : Fin cfg0.N) : (ms0_3 t).IsWhole := hstage0_3 ((cfg0.slots t 3).cast nbuf0_3)
abbrev scM0_0 : Memref sig .tc .vmem S136x8192 .bf16 := Memref.whole cc0_scratch0
abbrev scM0_1 : Memref sig .tc .vmem S136x4096 .f32 := Memref.whole cc0_scratch1

/-- The region's invariant with the two scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What the scratch buffers and the output hold after each point -/

/-- The grid's first point. -/
abbrev t₀ : Fin cfg0.N := ⟨0, Nat.lt_of_lt_of_eq (by omega : 0 < 32) N_0.symm⟩

/-- The transposed-feature scratch from the first point on: the feature array transposed, a row of ones, zero rows. -/
def XH (c : Dev nD) : Vec F S136x8192 .bf16 := xhSetup (iblk m c 1 t₀)

theorem XH_eq (c : Dev nD) (t : Fin cfg0.N) (hz : t.val = 0) : XH m c = xhSetup (iblk m c 1 t) := by
  obtain ⟨n, hn⟩ := t
  cases n with
  | zero => rfl
  | succ n => exact absurd hz (Nat.succ_ne_zero n)

/-- THE ACCUMULATION. The accumulator after the point at position `n`: the block product of the point at the first
    contraction block of a column half, the accumulator of the point before plus the block product elsewhere. -/
def accAt (c : Dev nD) : (n : ℕ) → n < cfg0.N → Vec F S136x4096 .f32
  | 0, hn => accFirst (grid0.coords ⟨0, hn⟩) (iblk m c 0 ⟨0, hn⟩) (XH m c)
  | n + 1, hn =>
    if (n + 1) % 16 = 0 then accFirst (grid0.coords ⟨n + 1, hn⟩) (iblk m c 0 ⟨n + 1, hn⟩) (XH m c)
    else accNext (grid0.coords ⟨n + 1, hn⟩) (iblk m c 0 ⟨n + 1, hn⟩) (XH m c) (accAt c n (Nat.lt_of_succ_lt hn))

theorem accAt_first (c : Dev nD) (t : Fin cfg0.N) (h : t.val % 16 = 0) :
    accAt m c t.val t.isLt = accFirst (grid0.coords t) (iblk m c 0 t) (XH m c) := by
  obtain ⟨n, hn⟩ := t
  cases n with
  | zero => rfl
  | succ n => exact if_pos h

theorem accAt_next (c : Dev nD) (t : Fin cfg0.N) (h : ¬t.val % 16 = 0) :
    accAt m c t.val t.isLt = accNext (grid0.coords t) (iblk m c 0 t) (XH m c) (accAt m c (t.val - 1) (Nat.lt_of_le_of_lt (Nat.sub_le _ _) t.isLt)) := by
  obtain ⟨n, hn⟩ := t
  cases n with
  | zero => exact absurd (Nat.zero_mod _) h
  | succ n => exact (if_neg h).trans rfl

/-- The output block a point would store from the accumulator it leaves (stored at the last contraction block only). -/
def outAt (c : Dev nD) (t : Fin cfg0.N) : Vec F S4096x128 .f32 := outOf (accAt m c t.val t.isLt) (iblk m c 2 t)

/-- The region invariant before position `n`: before the first point the scratch buffers at anything; afterwards the
    transposed-feature scratch at its filled contents and the accumulator at what the point before left. -/
def PhiS (c : Dev nD) : (n : ℕ) → n ≤ cfg0.N → sProp 𝕄
  | 0, _ => Pipeline.ΦA spec0 c
  | n + 1, hn => iprop(iprop(owns (c : Thread nD τ) scM0_0 fullShare (XH m c) ∗ owns (c : Thread nD τ) scM0_1 fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (XH m c) ∗ owns (c : Thread nD τ) scM0_1 fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (XH m c) ∗ owns (c : Thread nD τ) scM0_1 fullShare (accAt m c (n - 1) (by omega))) ∗ (∃ r, prngReg c r)) := by
  cases n with
  | zero => exact absurd rfl hz
  | succ n => rfl

/-! ## The pipeline's proof data -/

/-- The proof data of the one pipeline on core `c`: the arrays as the region finds them; after the body at point `t`
    each input's buffer at its block and the output's at the block computed from the accumulator; the invariant above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the case the point is in is read off the closed forms of the conditions; the invariant hands
    the body the scratch buffers at what the point before left (at anything before the first point) and takes them back
    at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases hz : t.val = 0
  · have h1 : condSetup (grid0.coords t) := (hcondSetup t).mpr hz
    have h2 : condFirst (grid0.coords t) := (hcondFirst t).mpr (by omega)
    have h3 : ¬condAccum (grid0.coords t) := fun h => (hcondAccum t).mp h (by omega)
    have h4 : ¬condLast (grid0.coords t) := fun h => by have := (hcondLast t).mp h; omega
    rw [Dat.leavesExact_idle (dats m 0 c) 3 t (idleAt0_3 t h4) (noFlush0_3 t h4)]
    rw [accAt_first m c t (by omega), XH_eq m c t hz]
    rw [PhiS_castSucc m c t, PhiS_zero m c _ _ hz, PhiA0_eq]
    iintro ⟨⟨⟨HS0, HS1⟩, Hg⟩, Ho, ⟨%d0, H0⟩, ⟨%d1, H1⟩, ⟨%d2, H2⟩, ⟨%d3, H3⟩⟩
    iapply (runA c (grid0.coords t) (ms0_0 t) (hs0_0 t) (ms0_1 t) (hs0_1 t) (ms0_2 t) (hs0_2 t) (ms0_3 t) (hs0_3 t) scM0_0 (Memref.isWhole_whole _) scM0_1 (Memref.isWhole_whole _) h1 h2 h3 h4 (iblk m c 0 t) (iblk m c 1 t) _ _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    iexists _; iexact H3
  · rw [PhiS_castSucc m c t, PhiS_pos m c _ _ hz]
    have h1 : ¬condSetup (grid0.coords t) := fun h => hz ((hcondSetup t).mp h)
    by_cases h0 : t.val % 16 = 0
    · have h2 : condFirst (grid0.coords t) := (hcondFirst t).mpr h0
      have h3 : ¬condAccum (grid0.coords t) := fun h => (hcondAccum t).mp h h0
      have h4 : ¬condLast (grid0.coords t) := fun h => by have := (hcondLast t).mp h; omega
      rw [Dat.leavesExact_idle (dats m 0 c) 3 t (idleAt0_3 t h4) (noFlush0_3 t h4)]
      rw [accAt_first m c t h0]
      iintro ⟨⟨⟨HS0, HS1⟩, Hg⟩, Ho, ⟨%d0, H0⟩, ⟨%d1, H1⟩, ⟨%d2, H2⟩, ⟨%d3, H3⟩⟩
      iapply (runD c (grid0.coords t) (ms0_0 t) (hs0_0 t) (ms0_1 t) (hs0_1 t) (ms0_2 t) (hs0_2 t) (ms0_3 t) (hs0_3 t) scM0_0 (Memref.isWhole_whole _) scM0_1 (Memref.isWhole_whole _) h1 h2 h3 h4 (iblk m c 0 t) (XH m c) _ _ _ Set.univ _)
      isplitl [H0]; · iexact H0
      isplitl [H1]; · iexact H1
      isplitl [H2]; · iexact H2
      isplitl [H3]; · iexact H3
      isplitl [HS0]; · iexact HS0
      isplitl [HS1]; · iexists _; iexact HS1
      iintro ⟨H0, H1, H2, H3, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      iexists _; iexact H3
    · have h2 : ¬condFirst (grid0.coords t) := fun h => h0 ((hcondFirst t).mp h)
      have h3 : condAccum (grid0.coords t) := (hcondAccum t).mpr h0
      by_cases h15 : t.val % 16 = 15
      · have h4 : condLast (grid0.coords t) := (hcondLast t).mpr h15
        rw [show (dats m 0 c).leavesExact 3 t = owns (c : Thread nD τ) (ms0_3 t) fullShare ((dats m 0 c).after 3 t) from by
          unfold Dat.leavesExact; rw [liveAt0_3 t h4], after0_3]
        unfold outAt
        rw [accAt_next m c t h0]
        iintro ⟨⟨⟨HS0, HS1⟩, Hg⟩, Ho, ⟨%d0, H0⟩, ⟨%d1, H1⟩, ⟨%d2, H2⟩, ⟨%d3, H3⟩⟩
        iapply (runC c (grid0.coords t) (ms0_0 t) (hs0_0 t) (ms0_1 t) (hs0_1 t) (ms0_2 t) (hs0_2 t) (ms0_3 t) (hs0_3 t) scM0_0 (Memref.isWhole_whole _) scM0_1 (Memref.isWhole_whole _) h1 h2 h3 h4 (iblk m c 0 t) (iblk m c 2 t) (XH m c) _ _ Set.univ _)
        isplitl [H0]; · iexact H0
        isplitl [H1]; · iexact H1
        isplitl [H2]; · iexact H2
        isplitl [H3]; · iexists _; iexact H3
        isplitl [HS0]; · iexact HS0
        isplitl [HS1]; · iexact HS1
        iintro ⟨H0, H1, H2, H3, HS0, HS1⟩
        isplitl [HS0 HS1 Hg]
        · isplitl [HS0 HS1]
          · isplitl [HS0]; · iexact HS0
            iexact HS1
          iexact Hg
        isplitl [Ho]; · iexact Ho
        isplitl [H0]; · iexact H0
        isplitl [H1]; · iexact H1
        isplitl [H2]; · iexact H2
        iexact H3
      · have h4 : ¬condLast (grid0.coords t) := fun h => h15 ((hcondLast t).mp h)
        rw [Dat.leavesExact_idle (dats m 0 c) 3 t (idleAt0_3 t h4) (noFlush0_3 t h4)]
        rw [accAt_next m c t h0]
        iintro ⟨⟨⟨HS0, HS1⟩, Hg⟩, Ho, ⟨%d0, H0⟩, ⟨%d1, H1⟩, ⟨%d2, H2⟩, ⟨%d3, H3⟩⟩
        iapply (runB c (grid0.coords t) (ms0_0 t) (hs0_0 t) (ms0_1 t) (hs0_1 t) (ms0_2 t) (hs0_2 t) (ms0_3 t) (hs0_3 t) scM0_0 (Memref.isWhole_whole _) scM0_1 (Memref.isWhole_whole _) h1 h2 h3 h4 (iblk m c 0 t) (XH m c) _ _ _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, HS0, HS1⟩
        isplitl [HS0 HS1 Hg]
        · isplitl [HS0 HS1]
          · isplitl [HS0]; · iexact HS0
            iexact HS1
          iexact Hg
        isplitl [Ho]; · iexact Ho
        isplitl [H0]; · iexact H0
        isplitl [H1]; · iexact H1
        isplitl [H2]; · iexact H2
        iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- Every weakly fair execution of @main terminates without a fault, every array of the pipeline ending at what the
    library computes from the proof data. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The frame: the program runs to the end, faults nowhere, and leaves its argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Gen

end
-- ==== Proof.Spec.lean ====
/-
  The layer both programs compute, as one function of the argument arrays at the ideal values.

  For a node `n` and an output feature `d'`:
      layer x A U (n, d') = max ( (Σ_d U(d', d) · agg(d, n)) / deg(n) , 0 ),
  where `agg(d, n) = Σ_j x(j, d) · a(j, n)` is the sum of the features of the rows `j` weighted by the adjacency
  entry `a(j, n)`, read as the signed integer the 32-bit word holds, and `deg(n) = Σ_j a(j, n)` is the column sum.
  The quotient is the extended reals' (`Ideal.div`), the rectifier the lattice maximum with zero.
-/
import Idealize.ShloMosaic.PureOps.Ideal
import Idealize.ShloMosaic.Lib.ValueIdx

noncomputable section

open scoped BigOperators

namespace Cert.ConvSpec

open Idealize.ShloMosaic Idealize.ShloMosaic.ValueIdx

/-- The adjacency entry of row `j` and column `n` as an extended real: the signed integer its word holds. -/
def adjVal (A : IVec (⟨2, ![8192, 8192]⟩ : Shape) 32) (j n : Fin 8192) : EReal :=
  (((A (ix2 j n)).toInt : ℝ) : EReal)

/-- Feature `d` of the rows, summed into node `n` with the adjacency column's weights. -/
def agg (x : FVec Ideal (⟨2, ![8192, 128]⟩ : Shape) .f32) (A : IVec (⟨2, ![8192, 8192]⟩ : Shape) 32)
    (d : Fin 128) (n : Fin 8192) : EReal :=
  ∑ j : Fin 8192, x (ix2 j d) * adjVal A j n

/-- The column sum of the adjacency matrix at node `n`. -/
def deg (A : IVec (⟨2, ![8192, 8192]⟩ : Shape) 32) (n : Fin 8192) : EReal :=
  ∑ j : Fin 8192, adjVal A j n

/-- The layer: the mixed neighbour sum over the degree, rectified. -/
def layer (x : FVec Ideal (⟨2, ![8192, 128]⟩ : Shape) .f32) (A : IVec (⟨2, ![8192, 8192]⟩ : Shape) 32)
    (U : FVec Ideal (⟨2, ![128, 128]⟩ : Shape) .f32) : FVec Ideal (⟨2, ![8192, 128]⟩ : Shape) .f32 :=
  fun idx => max (Ideal.div (∑ d : Fin 128, U (ix2 (idx 1) d) * agg x A d (idx 0)) (deg A (idx 0))) 0

end Cert.ConvSpec

end
-- ==== Proof.KernelAlg.lean ====
/-
  The kernel body's arithmetic at the ideal values, read one element at a time.

  Each payload of the body is a pure function of the values loaded before it. At the ideal values the format
  changes are the identity, a transpose and a shape cast only move elements, and a matrix product into the zero
  accumulator is the plain sum of products over the contracted axis. This module states, for every payload, the
  value it holds at the element with explicit coordinates.
-/
import proofs.«178046_g24824910970967_cont_8to1_1833_20_alg».proof.Proof.Gen.KernelIdeal.Skeleton
import proofs.«178046_g24824910970967_cont_8to1_1833_20_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Alg

open Idealize.ShloMosaic Idealize.ShloMosaic.ValueIdx Cert.KernelIdeal Cert.KernelIdeal.Gen

/-! ## The three pieces of the transposed feature table -/

/-- Rows 0..127 of the table: the features transposed, element (d, j) is feature d of row j. -/
theorem pay1_apply (v : Vec Ideal S8192x128 .f32) (d : Fin 128) (j : Fin 8192) :
    k0_pay1 (F := Ideal) v (ix2 d j) = v (ix2 j d) := by
  unfold k0_pay1
  rw [shapeCast_self]
  exact transpose_ix2_apply v _ d j

/-- Row 128 of the table: the constant one. -/
theorem pay2_apply (j : Fin 8192) : k0_pay2 (F := Ideal) (ix2 (0 : Fin 1) j) = 1 := by
  unfold k0_pay2
  rw [shapeCast_self]
  show Ideal.ofBits .bf16 0x3F80#16 = 1
  simp [Ideal.ofBits, Ideal.ieee, -EReal.coe_mul]; norm_num

/-- Rows 129..135 of the table: zero. -/
theorem pay3_apply (r : Fin 7) (j : Fin 8192) : k0_pay3 (F := Ideal) (ix2 r j) = 0 := by
  unfold k0_pay3
  rw [shapeCast_self]
  show Ideal.ofBits .bf16 0x0000#16 = 0
  simp [Ideal.ofBits, Ideal.ieee]

/-! ## The block product: one column block of the table times one block of the adjacency matrix -/

/-- The left operand's index of the block product: row of the output, … -/
theorem blk_lhs_0 (i : S136x4096.Idx) (q : dot_S136x512_S512x4096_S136x4096_1_0_0_1_n_n.contr.Idx) :
    (dot_S136x512_S512x4096_S136x4096_1_0_0_1_n_n.lhsIdx i q 0).val = (i 0).val := by
  unfold DotDims.lhsIdx
  rw [dif_neg (show ¬(0 : Fin S136x512.rank) ∈ dot_S136x512_S512x4096_S136x4096_1_0_0_1_n_n.lhsBatch by decide),
    dif_pos (show (0 : Fin S136x512.rank) ∈ dot_S136x512_S512x4096_S136x4096_1_0_0_1_n_n.lhsNonContracting by decide)]
  rfl
/-- … and the contracted position. -/
theorem blk_lhs_1 (i : S136x4096.Idx) (q : dot_S136x512_S512x4096_S136x4096_1_0_0_1_n_n.contr.Idx) :
    (dot_S136x512_S512x4096_S136x4096_1_0_0_1_n_n.lhsIdx i q 1).val = (q ⟨0, by decide⟩).val :=
  dot_S136x512_S512x4096_S136x4096_1_0_0_1_n_n.lhsIdx_val_of_single rfl i q
/-- The right operand's index of the block product: the contracted position, … -/
theorem blk_rhs_0 (i : S136x4096.Idx) (q : dot_S136x512_S512x4096_S136x4096_1_0_0_1_n_n.contr.Idx) :
    (dot_S136x512_S512x4096_S136x4096_1_0_0_1_n_n.rhsIdx i q 0).val = (q ⟨0, by decide⟩).val :=
  dot_S136x512_S512x4096_S136x4096_1_0_0_1_n_n.rhsIdx_val_of_single rfl i q
/-- … and the column of the output. -/
theorem blk_rhs_1 (i : S136x4096.Idx) (q : dot_S136x512_S512x4096_S136x4096_1_0_0_1_n_n.contr.Idx) :
    (dot_S136x512_S512x4096_S136x4096_1_0_0_1_n_n.rhsIdx i q 1).val = (i 1).val := by
  unfold DotDims.rhsIdx
  rw [dif_neg (show ¬(1 : Fin S512x4096.rank) ∈ dot_S136x512_S512x4096_S136x4096_1_0_0_1_n_n.rhsBatch by decide),
    dif_pos (show (1 : Fin S512x4096.rank) ∈ dot_S136x512_S512x4096_S136x4096_1_0_0_1_n_n.rhsNonContracting by decide)]
  rfl

/-- The block product at (r, n): the sum over the 512 rows k' of the adjacency block of the table's entry
    (r, k') times the adjacency entry (k', n) read as a signed integer. -/
theorem pay4_apply (a : Vec Ideal S512x4096 .i32) (xh : Vec Ideal S136x512 .bf16) (r : Fin 136) (n : Fin 4096) :
    k0_pay4 (F := Ideal) a xh (ix2 r n)
      = ∑ k' : Fin 512, xh (ix2 r k') * (((a (ix2 k' n)).toInt : ℝ) : EReal) := by
  unfold k0_pay4
  simp only [matmul]
  rw [Ideal.matmul_constant_zero_apply,
    ← Equiv.sum_comp (contrEquiv1 dot_S136x512_S512x4096_S136x4096_1_0_0_1_n_n 512 rfl rfl).symm]
  refine Finset.sum_congr rfl fun k _ => ?_
  have hk := contrEquiv1_symm_val dot_S136x512_S512x4096_S136x4096_1_0_0_1_n_n 512 rfl rfl k
  have el : dot_S136x512_S512x4096_S136x4096_1_0_0_1_n_n.lhsIdx (ix2 r n) ((contrEquiv1 dot_S136x512_S512x4096_S136x4096_1_0_0_1_n_n 512 rfl rfl).symm k) = ix2 r k :=
    funext fun ax => Fin.ext (by
      match ax with
      | ⟨0, _⟩ => exact blk_lhs_0 _ _
      | ⟨1, _⟩ => exact (blk_lhs_1 _ _).trans hk)
  have er : dot_S136x512_S512x4096_S136x4096_1_0_0_1_n_n.rhsIdx (ix2 r n) ((contrEquiv1 dot_S136x512_S512x4096_S136x4096_1_0_0_1_n_n 512 rfl rfl).symm k) = ix2 k n :=
    funext fun ax => Fin.ext (by
      match ax with
      | ⟨0, _⟩ => exact (blk_rhs_0 _ _).trans hk
      | ⟨1, _⟩ => exact blk_rhs_1 _ _)
  rw [el, er]
  rfl

/-- The first block's product is stored as it is. -/
theorem pay5_apply (a : Vec Ideal S512x4096 .i32) (xh : Vec Ideal S136x512 .bf16) (r : Fin 136) (n : Fin 4096) :
    k0_pay5 (F := Ideal) a xh (ix2 r n)
      = ∑ k' : Fin 512, xh (ix2 r k') * (((a (ix2 k' n)).toInt : ℝ) : EReal) := by
  unfold k0_pay5
  rw [shapeCast_self]
  exact pay4_apply a xh r n

/-- A later block's product is added to what the accumulator holds. -/
theorem pay6_apply (a : Vec Ideal S512x4096 .i32) (xh : Vec Ideal S136x512 .bf16) (acc : Vec Ideal S136x4096 .f32)
    (r : Fin 136) (n : Fin 4096) :
    k0_pay6 (F := Ideal) a xh acc (ix2 r n)
      = acc (ix2 r n) + ∑ k' : Fin 512, xh (ix2 r k') * (((a (ix2 k' n)).toInt : ℝ) : EReal) := by
  unfold k0_pay6
  rw [shapeCast_self, addf_apply, pay4_apply]

/-! ## The last step: mixing the features, dividing by the degree row, rectifying, transposing -/

/-- The left operand's index of the mixing product: row of the output, … -/
theorem mix_lhs_0 (i : S128x4096.Idx) (q : dot_S128x128_S128x4096_S128x4096_1_0_0_1_n_n.contr.Idx) :
    (dot_S128x128_S128x4096_S128x4096_1_0_0_1_n_n.lhsIdx i q 0).val = (i 0).val := by
  unfold DotDims.lhsIdx
  rw [dif_neg (show ¬(0 : Fin S128x128.rank) ∈ dot_S128x128_S128x4096_S128x4096_1_0_0_1_n_n.lhsBatch by decide),
    dif_pos (show (0 : Fin S128x128.rank) ∈ dot_S128x128_S128x4096_S128x4096_1_0_0_1_n_n.lhsNonContracting by decide)]
  rfl
/-- … and the contracted position. -/
theorem mix_lhs_1 (i : S128x4096.Idx) (q : dot_S128x128_S128x4096_S128x4096_1_0_0_1_n_n.contr.Idx) :
    (dot_S128x128_S128x4096_S128x4096_1_0_0_1_n_n.lhsIdx i q 1).val = (q ⟨0, by decide⟩).val :=
  dot_S128x128_S128x4096_S128x4096_1_0_0_1_n_n.lhsIdx_val_of_single rfl i q
/-- The right operand's index of the mixing product: the contracted position, … -/
theorem mix_rhs_0 (i : S128x4096.Idx) (q : dot_S128x128_S128x4096_S128x4096_1_0_0_1_n_n.contr.Idx) :
    (dot_S128x128_S128x4096_S128x4096_1_0_0_1_n_n.rhsIdx i q 0).val = (q ⟨0, by decide⟩).val :=
  dot_S128x128_S128x4096_S128x4096_1_0_0_1_n_n.rhsIdx_val_of_single rfl i q
/-- … and the column of the output. -/
theorem mix_rhs_1 (i : S128x4096.Idx) (q : dot_S128x128_S128x4096_S128x4096_1_0_0_1_n_n.contr.Idx) :
    (dot_S128x128_S128x4096_S128x4096_1_0_0_1_n_n.rhsIdx i q 1).val = (i 1).val := by
  unfold DotDims.rhsIdx
  rw [dif_neg (show ¬(1 : Fin S128x4096.rank) ∈ dot_S128x128_S128x4096_S128x4096_1_0_0_1_n_n.rhsBatch by decide),
    dif_pos (show (1 : Fin S128x4096.rank) ∈ dot_S128x128_S128x4096_S128x4096_1_0_0_1_n_n.rhsNonContracting by decide)]
  rfl

/-- The mixing product at (d', n): the sum over the features d of the weight (d', d) times the entry (d, n). -/
theorem mix_apply (W : FVec Ideal S128x128 .bf16) (y : FVec Ideal S128x4096 .bf16) (d' : Fin 128) (n : Fin 4096) :
    FloatOps.matmul dot_S128x128_S128x4096_S128x4096_1_0_0_1_n_n none W y (constant (F := Ideal) S128x4096 .f32 0x00000000#32) (ix2 d' n)
      = ∑ d : Fin 128, W (ix2 d' d) * y (ix2 d n) := by
  rw [Ideal.matmul_constant_zero_apply,
    ← Equiv.sum_comp (contrEquiv1 dot_S128x128_S128x4096_S128x4096_1_0_0_1_n_n 128 rfl rfl).symm]
  refine Finset.sum_congr rfl fun k _ => ?_
  have hk := contrEquiv1_symm_val dot_S128x128_S128x4096_S128x4096_1_0_0_1_n_n 128 rfl rfl k
  have el : dot_S128x128_S128x4096_S128x4096_1_0_0_1_n_n.lhsIdx (ix2 d' n) ((contrEquiv1 dot_S128x128_S128x4096_S128x4096_1_0_0_1_n_n 128 rfl rfl).symm k) = ix2 d' k :=
    funext fun ax => Fin.ext (by
      match ax with
      | ⟨0, _⟩ => exact mix_lhs_0 _ _
      | ⟨1, _⟩ => exact (mix_lhs_1 _ _).trans hk)
  have er : dot_S128x128_S128x4096_S128x4096_1_0_0_1_n_n.rhsIdx (ix2 d' n) ((contrEquiv1 dot_S128x128_S128x4096_S128x4096_1_0_0_1_n_n 128 rfl rfl).symm k) = ix2 k n :=
    funext fun ax => Fin.ext (by
      match ax with
      | ⟨0, _⟩ => exact (mix_rhs_0 _ _).trans hk
      | ⟨1, _⟩ => exact mix_rhs_1 _ _)
  rw [el, er]

/-- The stored block at (n, d'): the mixed sum of column n of the accumulator's feature rows, over the entry n of
    its degree row, rectified. -/
theorem pay7_apply (v20 : Vec Ideal S128x4096 .f32) (v22 : Vec Ideal S1x4096 .f32) (U : Vec Ideal S128x128 .f32)
    (n : Fin 4096) (d' : Fin 128) :
    k0_pay7 (F := Ideal) v20 v22 U (ix2 n d')
      = max (Ideal.div (∑ d : Fin 128, U (ix2 d' d) * v20 (ix2 d n)) (v22 (ix2 (0 : Fin 1) n))) 0 := by
  unfold k0_pay7
  refine (transpose_ix2_apply _ _ n d').trans ?_
  rw [maximumf_apply, divf_apply, broadcast_apply, broadcastTo_1b_ab_apply]
  simp only [matmul]
  rw [mix_apply]
  show max (Ideal.div _ _) (Ideal.ofBits .f32 0x00000000#32) = _
  rw [Ideal.ofBits_zero_f32]
  rfl

end Cert.KernelIdeal.Alg

end
-- ==== Proof.BlockSum.lean ====
/-
  A sum over 8192 terms taken sixteen blocks of 512 at a time.

  The accumulator of the kernel starts from the first block's sum and adds one block's sum at each later step:
  after the last step it holds ((S_0 + S_1) + …) + S_15 with S_k the sum of the terms 512 k … 512 k + 511. That
  left-nested sum is the sum of all 8192 terms. Only the associativity and commutativity of the addition are
  used, so the statement holds in the extended reals as it stands.
-/
import Idealize.ShloMosaic.PureOps.Ideal

noncomputable section

open scoped BigOperators

namespace Cert.KernelIdeal.Alg

/-- Partial sums over consecutive blocks of length `b`: if `P 0` is the first block's sum and each later `P (k + 1)`
    adds block `k + 1` to `P k`, then `P K` is the sum of the first `b (K + 1)` terms. -/
theorem partial_block_sums {M : Type} [AddCommMonoid M] (g : ℕ → M) (b N : ℕ) (P : ℕ → M)
    (h0 : P 0 = ∑ m ∈ Finset.range b, g m)
    (hS : ∀ k, k + 1 < N → P (k + 1) = P k + ∑ m ∈ Finset.range b, g (b * (k + 1) + m)) :
    ∀ K, K < N → P K = ∑ m ∈ Finset.range (b * (K + 1)), g m := by
  intro K
  induction K with
  | zero =>
    intro _
    rw [h0, Nat.zero_add, Nat.mul_one]
  | succ K ih =>
    intro hK
    rw [hS K hK, ih (by omega), show b * (K + 1 + 1) = b * (K + 1) + b from by ring, Finset.sum_range_add]

/-- Sixteen blocks of 512 make up the 8192 terms: the left-nested sum of the block sums is the whole sum. -/
theorem sum_sixteen_blocks (f : Fin 8192 → EReal) (P : ℕ → EReal)
    (h0 : P 0 = ∑ k' : Fin 512, f ⟨k'.val, by omega⟩)
    (hS : ∀ k (h : k + 1 < 16), P (k + 1) = P k + ∑ k' : Fin 512, f ⟨512 * (k + 1) + k'.val, by omega⟩) :
    P 15 = ∑ j : Fin 8192, f j := by
  -- the terms continued by zero past the last one, so that blocks are ranges of naturals
  let g : ℕ → EReal := fun m => if h : m < 8192 then f ⟨m, h⟩ else 0
  have hg : ∀ (m : ℕ) (h : m < 8192), g m = f ⟨m, h⟩ := fun m h => dif_pos h
  have key := partial_block_sums g 512 16 P
    (by
      rw [h0, Finset.sum_range]
      exact Finset.sum_congr rfl fun k' _ => (hg k'.val (by omega)).symm)
    (fun k h => by
      rw [hS k h, Finset.sum_range]
      exact congrArg (P k + ·) (Finset.sum_congr rfl fun k' _ => (hg (512 * (k + 1) + k'.val) (by omega)).symm))
    15 (by omega)
  rw [key, show 512 * (15 + 1) = 8192 from rfl, Finset.sum_range]
  exact Finset.sum_congr rfl fun j _ => hg j.val j.isLt

end Cert.KernelIdeal.Alg

end
-- ==== Proof.KernelLayer.lean ====
/-
  The kernel's last stored block is the layer.

  For one half of the nodes (4096 columns of the adjacency matrix) the kernel runs sixteen steps. Step k multiplies
  the column block k of the transposed feature table (rows 0..127 the features, row 128 the constant one) by the
  rows 512 k … 512 k + 511 of the adjacency columns, and adds the product to the accumulator (the first step
  stores it). After the last step row d of the accumulator is the neighbour sum of feature d and row 128 is the
  column sum of the adjacency matrix, because the sixteen block sums together run over all 8192 rows once. The
  last payload mixes the feature rows with the weights, divides by the degree row and rectifies: that is the
  layer's value at the node.
-/
import proofs.«178046_g24824910970967_cont_8to1_1833_20_alg».proof.Proof.KernelAlg
import proofs.«178046_g24824910970967_cont_8to1_1833_20_alg».proof.Proof.BlockSum

noncomputable section

open scoped BigOperators

namespace Cert.KernelIdeal.Alg

open Idealize.ShloMosaic Idealize.ShloMosaic.ValueIdx Cert.KernelIdeal Cert.KernelIdeal.Gen Cert.ConvSpec

/-- Row k' of block k of the adjacency rows. -/
abbrev blkRow (k : Fin 16) (k' : Fin 512) : Fin 8192 := ⟨512 * k.val + k'.val, by omega⟩
/-- Column n' of half i0 of the nodes. -/
abbrev halfCol (i0 : Fin 2) (n' : Fin 4096) : Fin 8192 := ⟨4096 * i0.val + n'.val, by omega⟩
/-- Feature row d of the table and of the accumulator. -/
abbrev featRow (d : Fin 128) : Fin 136 := ⟨d.val, by omega⟩
/-- The row of ones of the table, the degree row of the accumulator. -/
abbrev oneRow : Fin 136 := ⟨128, by omega⟩

/-- After the sixteen steps, row r of the accumulator at column n' is the table's row r summed against the whole
    adjacency column of the node. -/
theorem acc_last (i0 : Fin 2) (A : IVec (⟨2, ![8192, 8192]⟩ : Shape) 32)
    (XH : FVec Ideal S136x8192 .bf16)
    (a : Fin 16 → Vec Ideal S512x4096 .i32)
    (ha : ∀ (k : Fin 16) (k' : Fin 512) (n' : Fin 4096), a k (ix2 k' n') = A (ix2 (blkRow k k') (halfCol i0 n')))
    (xh : Fin 16 → Vec Ideal S136x512 .bf16)
    (hxh : ∀ (k : Fin 16) (r : Fin 136) (k' : Fin 512), xh k (ix2 r k') = XH (ix2 r (blkRow k k')))
    (acc : ℕ → FVec Ideal S136x4096 .f32)
    (hacc0 : acc 0 = k0_pay5 (F := Ideal) (a 0) (xh 0))
    (haccS : ∀ (k : ℕ) (h : k + 1 < 16), acc (k + 1) = k0_pay6 (F := Ideal) (a ⟨k + 1, h⟩) (xh ⟨k + 1, h⟩) (acc k))
    (r : Fin 136) (n' : Fin 4096) :
    acc 15 (ix2 r n') = ∑ j : Fin 8192, XH (ix2 r j) * adjVal A j (halfCol i0 n') := by
  refine sum_sixteen_blocks (fun j => XH (ix2 r j) * adjVal A j (halfCol i0 n')) (fun k => acc k (ix2 r n')) ?_ ?_
  · show acc 0 (ix2 r n') = _
    rw [hacc0, pay5_apply]
    refine Finset.sum_congr rfl fun k' _ => ?_
    rw [hxh 0 r k', ha 0 k' n']
    have e : blkRow 0 k' = (⟨k'.val, by omega⟩ : Fin 8192) := Fin.ext (by show 512 * 0 + k'.val = k'.val; omega)
    rw [e]
    rfl
  · intro k h
    show acc (k + 1) (ix2 r n') = acc k (ix2 r n') + _
    rw [haccS k h, pay6_apply]
    refine congrArg (acc k (ix2 r n') + ·) (Finset.sum_congr rfl fun k' _ => ?_)
    rw [hxh ⟨k + 1, h⟩ r k', ha ⟨k + 1, h⟩ k' n']
    rfl

/-- THE BLOCK THE KERNEL STORES IS THE LAYER. For half i0 of the nodes: if the table holds the transposed features in
    its rows 0..127 and ones in row 128, the sixteen adjacency blocks and table blocks are the ones the steps load,
    and the accumulator is built by the first-step store and the later-step additions, then the last payload of the
    accumulator's feature rows, its degree row and the weights is the layer at the nodes of that half. -/
theorem kernel_block_eq_layer (i0 : Fin 2)
    (x : FVec Ideal (⟨2, ![8192, 128]⟩ : Shape) .f32) (A : IVec (⟨2, ![8192, 8192]⟩ : Shape) 32)
    (U : FVec Ideal (⟨2, ![128, 128]⟩ : Shape) .f32)
    (XH : FVec Ideal S136x8192 .bf16)
    (hX1 : ∀ (d : Fin 128) (j : Fin 8192), XH (ix2 (featRow d) j) = x (ix2 j d))
    (hX2 : ∀ j : Fin 8192, XH (ix2 oneRow j) = 1)
    (a : Fin 16 → Vec Ideal S512x4096 .i32)
    (ha : ∀ (k : Fin 16) (k' : Fin 512) (n' : Fin 4096), a k (ix2 k' n') = A (ix2 (blkRow k k') (halfCol i0 n')))
    (xh : Fin 16 → Vec Ideal S136x512 .bf16)
    (hxh : ∀ (k : Fin 16) (r : Fin 136) (k' : Fin 512), xh k (ix2 r k') = XH (ix2 r (blkRow k k')))
    (acc : ℕ → FVec Ideal S136x4096 .f32)
    (hacc0 : acc 0 = k0_pay5 (F := Ideal) (a 0) (xh 0))
    (haccS : ∀ (k : ℕ) (h : k + 1 < 16), acc (k + 1) = k0_pay6 (F := Ideal) (a ⟨k + 1, h⟩) (xh ⟨k + 1, h⟩) (acc k))
    (v20 : Vec Ideal S128x4096 .f32)
    (hv20 : ∀ (d : Fin 128) (n' : Fin 4096), v20 (ix2 d n') = acc 15 (ix2 (featRow d) n'))
    (v22 : Vec Ideal S1x4096 .f32)
    (hv22 : ∀ n' : Fin 4096, v22 (ix2 (0 : Fin 1) n') = acc 15 (ix2 oneRow n')) :
    ∀ (n' : Fin 4096) (d' : Fin 128),
      k0_pay7 (F := Ideal) v20 v22 U (ix2 n' d') = layer x A U (ix2 (halfCol i0 n') d') := by
  intro n' d'
  -- the accumulator's feature rows hold the neighbour sums, …
  have hagg : ∀ d : Fin 128, v20 (ix2 d n') = agg x A d (halfCol i0 n') := fun d => by
    rw [hv20, acc_last i0 A XH a ha xh hxh acc hacc0 haccS]
    show _ = ∑ j : Fin 8192, x (ix2 j d) * adjVal A j (halfCol i0 n')
    exact Finset.sum_congr rfl fun j _ => by rw [hX1]
  -- … and its degree row the column sum: the table's row of ones contributes the factor one
  have hdeg : v22 (ix2 (0 : Fin 1) n') = deg A (halfCol i0 n') := by
    rw [hv22, acc_last i0 A XH a ha xh hxh acc hacc0 haccS]
    show _ = ∑ j : Fin 8192, adjVal A j (halfCol i0 n')
    exact Finset.sum_congr rfl fun j _ => by rw [hX2, one_mul]
  rw [pay7_apply, hdeg]
  show _ = max (Ideal.div (∑ d : Fin 128, U (ix2 d' d) * agg x A d (halfCol i0 n')) (deg A (halfCol i0 n'))) 0
  exact congrArg (fun s => max (Ideal.div s (deg A (halfCol i0 n'))) 0)
    (Finset.sum_congr rfl fun d _ => by rw [hagg])

end Cert.KernelIdeal.Alg

end
-- ==== Proof.KernelIdx.lean ====
/-
  Where the kernel's blocks sit in its arrays. The grid has 2 x 16 points; point `t` has coordinates
  (t / 16, t % 16) = (column half, contraction block). The adjacency window's block at `t` is rows
  512 (t % 16) … and columns 4096 (t / 16) … of the adjacency matrix; the feature and weight windows are whole
  arrays; the output window's block is rows 4096 (t / 16) … of the result, written back at the last contraction
  block of each half. Every block coordinate is (block index) x (block size) + (coordinate inside the block); the
  block indices are decided once over the 32 points.
-/
import proofs.«178046_g24824910970967_cont_8to1_1833_20_alg».proof.Proof.IdealBody

set_option maxRecDepth 16384

noncomputable section

namespace Cert.KernelIdeal.Idx

open Cert.KernelIdeal Cert.KernelIdeal.Gen Idealize.ShloMosaic Idealize.ShloMosaic.TcCoe Idealize.ShloMosaic.ValueIdx

variable {F : FTy → Type} [FloatOps F]
variable (m : (ℓ : Loc nD τ sig) → Buf (Elt F) ℓ)

/-! ## The grid's points and the block indices, decided -/

/-- A point is below 32. -/
theorem point_lt (t : Fin cfg0.N) : t.val < 32 := lt_of_lt_of_eq t.isLt N_0

/-- The printed index maps and the scratch offset at each of the 32 points. -/
theorem idx_facts : ∀ t : Fin cfg0.N,
    win0_0.index t (0 : Fin 2) = t.val % 16 ∧ win0_0.index t (1 : Fin 2) = t.val / 16
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val / 16 ∧ win0_3.index t (1 : Fin 2) = 0
    ∧ k0_off1 (grid0.coords t) (0 : Fin 2) = 0 ∧ k0_off1 (grid0.coords t) (1 : Fin 2) = 512 * (t.val % 16) :=
  (by decide +kernel : ∀ t : Fin grid0.N, _)

/-- Row `k'` of the contraction block of point `t`, as a row of the adjacency matrix (a column of the
    transposed-feature scratch). -/
abbrev rowOf (t : Fin cfg0.N) (k' : Fin 512) : Fin 8192 :=
  ⟨512 * (t.val % 16) + k'.val, by have := k'.isLt; omega⟩
/-- Column `n'` of the column half of point `t`, as a column of the adjacency matrix (a row of the result). -/
abbrev colOf (t : Fin cfg0.N) (n' : Fin 4096) : Fin 8192 :=
  ⟨4096 * (t.val / 16) + n'.val, by have := point_lt t; have := n'.isLt; omega⟩

/-! ## The input windows' blocks -/

/-- The adjacency block at point `t`: rows `512 (t % 16) …`, columns `4096 (t / 16) …`. -/
theorem adj_block (c : Dev nD) (t : Fin cfg0.N) (k' : Fin 512) (n' : Fin 4096) :
    (iblk m c 0 t : Vec F S512x4096 .i32) (ix2 k' n') = V m c main_arg1 (ix2 (rowOf t k') (colOf t n')) := by
  obtain ⟨e0, e1, -⟩ := idx_facts t
  show V m c main_arg1 (((cfg0.win 0).blk t).view.emb (ix2 k' n')) = _
  refine congrArg (V m c main_arg1) (funext fun a => Fin.ext ?_)
  match a with
  | ⟨0, _⟩ => show win0_0.index t (0 : Fin 2) * 512 + 1 * k'.val = 512 * (t.val % 16) + k'.val; omega
  | ⟨1, _⟩ => show win0_0.index t (1 : Fin 2) * 4096 + 1 * n'.val = 4096 * (t.val / 16) + n'.val; omega

/-- The feature window's block is the whole feature array, at every point. -/
theorem x_block (c : Dev nD) (t : Fin cfg0.N) : (iblk m c 1 t : Vec F S8192x128 .f32) = V m c main_arg0 := by
  obtain ⟨-, -, e0, e1, -⟩ := idx_facts t
  funext y
  show V m c main_arg0 (((cfg0.win 1).blk t).view.emb y) = V m c main_arg0 y
  refine congrArg (V m c main_arg0) (funext fun a => Fin.ext ?_)
  match a with
  | ⟨0, _⟩ => show win0_1.index t (0 : Fin 2) * 8192 + 1 * (y 0).val = (y 0).val; omega
  | ⟨1, _⟩ => show win0_1.index t (1 : Fin 2) * 128 + 1 * (y 1).val = (y 1).val; omega

theorem x_block_apply (c : Dev nD) (t : Fin cfg0.N) (j : Fin 8192) (d : Fin 128) :
    (iblk m c 1 t : Vec F S8192x128 .f32) (ix2 j d) = V m c main_arg0 (ix2 j d) :=
  congrFun (x_block m c t) (ix2 j d)

/-- The weight window's block is the whole weight matrix, at every point. -/
theorem u_block (c : Dev nD) (t : Fin cfg0.N) : (iblk m c 2 t : Vec F S128x128 .f32) = V m c main_arg2 := by
  obtain ⟨-, -, -, -, e0, e1, -⟩ := idx_facts t
  funext y
  show V m c main_arg2 (((cfg0.win 2).blk t).view.emb y) = V m c main_arg2 y
  refine congrArg (V m c main_arg2) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem u_block_apply (c : Dev nD) (t : Fin cfg0.N) (a b : Fin 128) :
    (iblk m c 2 t : Vec F S128x128 .f32) (ix2 a b) = V m c main_arg2 (ix2 a b) :=
  congrFun (u_block m c t) (ix2 a b)

/-! ## The scratch rectangles the body loads through -/

/-- The column block of the transposed-feature scratch that point `t` multiplies: all 136 rows, columns
    `512 (t % 16) …`. -/
theorem xh_ld (XH : Vec F S136x8192 .bf16) (t : Fin cfg0.N) (r : Fin 136) (k' : Fin 512) :
    View.ld XH (xhRect (grid0.coords t)) (ix2 r k') = XH (ix2 r (rowOf t k')) := by
  obtain ⟨-, -, -, -, -, -, -, -, e0, e1⟩ := idx_facts t
  show XH ((xhRect (grid0.coords t)).idx (ix2 r k')) = _
  refine congrArg XH (funext fun a => Fin.ext ?_)
  match a with
  | ⟨0, _⟩ => show k0_off1 (grid0.coords t) (0 : Fin 2) + 1 * r.val = r.val; omega
  | ⟨1, _⟩ => show k0_off1 (grid0.coords t) (1 : Fin 2) + 1 * k'.val = 512 * (t.val % 16) + k'.val; omega

/-- The accumulator's 128 feature rows. -/
theorem acc_rows_ld (acc : Vec F S136x4096 .f32) (d : Fin 128) (n' : Fin 4096) :
    View.ld acc accRows (ix2 d n') = acc (ix2 (⟨d.val, by have := d.isLt; omega⟩ : Fin 136) n') := by
  show acc (accRows.idx (ix2 d n')) = _
  refine congrArg acc (funext fun a => Fin.ext ?_)
  match a with
  | ⟨0, _⟩ => show 0 + 1 * d.val = d.val; omega
  | ⟨1, _⟩ => show 0 + 1 * n'.val = n'.val; omega

/-- The accumulator's row 128: the column sums. -/
theorem acc_deg_ld (acc : Vec F S136x4096 .f32) (n' : Fin 4096) :
    View.ld acc accDeg (ix2 (0 : Fin 1) n') = acc (ix2 (⟨128, by omega⟩ : Fin 136) n') := by
  show acc (accDeg.idx (ix2 (0 : Fin 1) n')) = _
  refine congrArg acc (funext fun a => Fin.ext ?_)
  match a with
  | ⟨0, _⟩ => show 128 + 1 * (0 : Fin 1).val = 128; rfl
  | ⟨1, _⟩ => show 0 + 1 * n'.val = n'.val; omega

/-! ## The output window -/

/-- Where index `y` of the output block of point `t` sits in the result: row `4096 (t / 16) + y 0`, the same
    feature. -/
theorem out_emb (t : Fin cfg0.N) (y : S4096x128.Idx) :
    ((cfg0.win 3).blk t).view.emb y = ix2 (colOf t (y 0)) (y 1) := by
  obtain ⟨-, -, -, -, -, -, e0, e1, -⟩ := idx_facts t
  funext a
  apply Fin.ext
  match a with
  | ⟨0, _⟩ => show win0_3.index t (0 : Fin 2) * 4096 + 1 * (y 0).val = 4096 * (t.val / 16) + (y 0).val; omega
  | ⟨1, _⟩ => show win0_3.index t (1 : Fin 2) * 128 + 1 * (y 1).val = (y 1).val; omega

/-- The same at explicit coordinates. -/
theorem out_emb_ix2 (t : Fin cfg0.N) (n' : Fin 4096) (d' : Fin 128) :
    ((cfg0.win 3).blk t).view.emb (ix2 n' d') = ix2 (colOf t n') d' := out_emb t (ix2 n' d')

/-- An index of the result is in point `t`'s output block iff each coordinate is in the block's range on its axis. -/
theorem mem_blk3 (t : Fin cfg0.N) (i : S8192x128.Idx) :
    i ∈ ((cfg0.win 3).blk t).view.set ↔ ∀ a : Fin 2, win0_3.index t a * S4096x128.size a ≤ (i a).val ∧ (i a).val < win0_3.index t a * S4096x128.size a + S4096x128.size a := by
  show i ∈ ((View.whole main_v0).slice (win0_3.rect t)).set ↔ _
  rw [View.set_slice_whole, Rect.mem_set_unit]
  exact Iff.rfl

/-- … that is, iff its row is in the point's column half. -/
theorem mem_blk3_iff (t : Fin cfg0.N) (i : S8192x128.Idx) :
    i ∈ ((cfg0.win 3).blk t).view.set ↔ 4096 * (t.val / 16) ≤ (i 0).val ∧ (i 0).val < 4096 * (t.val / 16) + 4096 := by
  obtain ⟨-, -, -, -, -, -, e0, e1, -⟩ := idx_facts t
  rw [mem_blk3]
  have hi1 : (i 1).val < 128 := (i 1).isLt
  constructor
  · intro h
    have b0 : win0_3.index t (0 : Fin 2) * 4096 ≤ (i 0).val ∧ (i 0).val < win0_3.index t (0 : Fin 2) * 4096 + 4096 := h 0
    omega
  · intro h a
    match a with
    | ⟨0, _⟩ => show win0_3.index t (0 : Fin 2) * 4096 ≤ (i 0).val ∧ (i 0).val < win0_3.index t (0 : Fin 2) * 4096 + 4096; omega
    | ⟨1, _⟩ => show win0_3.index t (1 : Fin 2) * 128 ≤ (i 1).val ∧ (i 1).val < win0_3.index t (1 : Fin 2) * 128 + 128; omega

/-- The last contraction block of the column half holding row `r`: the point that writes that row back. -/
abbrev flushPoint (r : Fin 8192) : Fin cfg0.N :=
  ⟨16 * (r.val / 4096) + 15, lt_of_lt_of_eq (by have := r.isLt; omega) N_0.symm⟩

/-- THE COVER: every index of the result is in the output block of a point that writes its block back. -/
theorem out_cover (i : S8192x128.Idx) :
    ∃ t : Fin cfg0.N, (cfg0.win 3).flush t = true ∧ i ∈ ((cfg0.win 3).blk t).view.set := by
  have hi0 : (i 0).val < 8192 := (i 0).isLt
  refine ⟨flushPoint (i 0), (flush0_3 _).2 ?_, (mem_blk3_iff _ i).2 ?_⟩
  · show (16 * ((i 0).val / 4096) + 15) % 16 = 15; omega
  · show 4096 * ((16 * ((i 0).val / 4096) + 15) / 16) ≤ (i 0).val ∧ (i 0).val < 4096 * ((16 * ((i 0).val / 4096) + 15) / 16) + 4096
    omega

end Cert.KernelIdeal.Idx

end
-- ==== Proof.KernelValue.lean ====
/-
  The kernel's run at the ideal values: the output array ends holding the layer.

  The grid has 32 points: 2 halves of the nodes times 16 blocks of adjacency rows. Point t works on half t / 16 and
  block t mod 16. The table of transposed features is filled at the first point and never changes. Within one
  half the accumulator after the point of block k is the left-nested sum of the block products 0..k, and the
  point of block 15 stores the layer's values for the 4096 nodes of its half. The two stored blocks cover the
  output array.

  What this module needs to know about WHERE the blocks sit in their arrays — which rows and columns of the
  adjacency matrix a point loads, which columns of the table, which rows of the accumulator, which rows of the
  output — is collected in one record of index equations, `BlockIndices`; everything else follows from the
  algebra of the payloads.
-/
import proofs.«178046_g24824910970967_cont_8to1_1833_20_alg».proof.Proof.IdealFrame
import proofs.«178046_g24824910970967_cont_8to1_1833_20_alg».proof.Proof.KernelLayer
import proofs.«178046_g24824910970967_cont_8to1_1833_20_alg».proof.Proof.KernelIdx

noncomputable section

open scoped BigOperators

namespace Cert.KernelIdeal.RunValue

open Cert.KernelIdeal Cert.KernelIdeal.Gen Cert.KernelIdeal.Alg Cert.ConvSpec
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The grid has 32 points. -/
theorem N32 : cfg0.N = 32 := N_0

/-- The three argument arrays as the region finds them, at their literal shapes. -/
abbrev argX (c : Dev nD) : FVec Ideal (⟨2, ![8192, 128]⟩ : Shape) .f32 := V m c main_arg0
abbrev argA (c : Dev nD) : IVec (⟨2, ![8192, 8192]⟩ : Shape) 32 := V m c main_arg1
abbrev argU (c : Dev nD) : FVec Ideal (⟨2, ![128, 128]⟩ : Shape) .f32 := V m c main_arg2

/-! ## Where the blocks sit -/

/-- The point of block `k` of half `i0`. -/
abbrev pt (i0 : Fin 2) (k : Fin 16) : Fin cfg0.N := ⟨16 * i0.val + k.val, by have := N32; omega⟩

/-- The half of the nodes a point works on. -/
abbrev halfOf (t : Fin cfg0.N) : Fin 2 := ⟨t.val / 16, by have := N32; have := t.isLt; omega⟩

/-- THE INDEX EQUATIONS this module rests on, for core `c`: each block read at explicit coordinates is its array
    read at explicit coordinates. Point `t` loads the adjacency rows `512 (t mod 16) …` at the columns
    `4096 (t / 16) …`, the whole feature and weight arrays, the table's columns `512 (t mod 16) …`, the
    accumulator's rows 0..127 and its row 128; the output block of point `t` is the rows `4096 (t / 16) …` of the
    output array, and the blocks of the points that write back cover that array. -/
structure BlockIndices (c : Dev nD) : Prop where
  adj : ∀ (t : Fin cfg0.N) (k' : Fin 512) (n' : Fin 4096),
    (iblk m c 0 t : Vec Ideal S512x4096 .i32) (ix2 k' n')
      = argA m c (ix2 ⟨512 * (t.val % 16) + k'.val, by omega⟩ ⟨4096 * (t.val / 16) + n'.val, by have := N32; have := t.isLt; omega⟩)
  feat : ∀ (t : Fin cfg0.N) (j : Fin 8192) (d : Fin 128),
    (iblk m c 1 t : Vec Ideal S8192x128 .f32) (ix2 j d) = argX m c (ix2 j d)
  weight : ∀ (t : Fin cfg0.N) (d' d : Fin 128),
    (iblk m c 2 t : Vec Ideal S128x128 .f32) (ix2 d' d) = argU m c (ix2 d' d)
  tableCols : ∀ (X : Vec Ideal S136x8192 .bf16) (t : Fin cfg0.N) (r : Fin 136) (k' : Fin 512),
    View.ld X (xhRect (grid0.coords t)) (ix2 r k') = X (ix2 r ⟨512 * (t.val % 16) + k'.val, by omega⟩)
  accFeat : ∀ (acc : Vec Ideal S136x4096 .f32) (d : Fin 128) (n' : Fin 4096),
    View.ld acc accRows (ix2 d n') = acc (ix2 ⟨d.val, by omega⟩ n')
  accOne : ∀ (acc : Vec Ideal S136x4096 .f32) (n' : Fin 4096),
    View.ld acc accDeg (ix2 (0 : Fin 1) n') = acc (ix2 ⟨128, by omega⟩ n')
  outRows : ∀ (t : Fin cfg0.N), t.val % 16 = 15 → ∀ (n' : Fin 4096) (d' : Fin 128),
    (((cfg0.win 3).blk t).view.emb (ix2 n' d') : S8192x128.Idx)
      = ix2 ⟨4096 * (t.val / 16) + n'.val, by have := N32; have := t.isLt; omega⟩ d'
  cover : ∀ i : S8192x128.Idx, ∃ t : Fin cfg0.N, (cfg0.win 3).flush t = true ∧ i ∈ ((cfg0.win 3).blk t).view.set

variable {m}

/-! ## The table of transposed features -/

/-- Rows 0..127 of the table are the feature array transposed. -/
theorem XH_feat {c : Dev nD} (H : BlockIndices m c) (d : Fin 128) (j : Fin 8192) :
    XH (F := Ideal) m c (ix2 (featRow d) j) = argX m c (ix2 j d) := by
  unfold XH xhSetup
  exact (SetupRows.setupRows_lt _ _ _ d.val d.isLt (by omega) j).trans
    ((pay1_apply _ ⟨d.val, d.isLt⟩ j).trans (H.feat t₀ j d))

/-- Row 128 of the table is the constant one. -/
theorem XH_one {c : Dev nD} (j : Fin 8192) : XH (F := Ideal) m c (ix2 oneRow j) = 1 := by
  unfold XH xhSetup
  exact (SetupRows.setupRows_128 _ _ _ (by omega) j).trans (pay2_apply j)

/-! ## The accumulator along one half of the nodes -/

variable (m) in
/-- The adjacency block the point of block `k` of half `i0` loads. -/
def adjBlk (c : Dev nD) (i0 : Fin 2) (k : Fin 16) : Vec Ideal S512x4096 .i32 := iblk m c 0 (pt i0 k)

variable (m) in
/-- The column block of the table that point multiplies. -/
def tblBlk (c : Dev nD) (i0 : Fin 2) (k : Fin 16) : Vec Ideal S136x512 .bf16 :=
  View.ld (XH m c) (xhRect (grid0.coords (pt i0 k)))

variable (m) in
/-- The accumulator after the point of block `k` of half `i0` (zero past the last block, so that the sequence is total). -/
def accSeq (c : Dev nD) (i0 : Fin 2) (k : ℕ) : Vec Ideal S136x4096 .f32 :=
  if h : k < 16 then accAt m c (pt i0 ⟨k, h⟩).val (pt i0 ⟨k, h⟩).isLt else fun _ => (0 : EReal)

/-- The accumulator at a position does not depend on how the position is written. -/
theorem accAt_congr (c : Dev nD) {n n' : ℕ} (e : n = n') (h : n < cfg0.N) (h' : n' < cfg0.N) :
    accAt m c n h = accAt m c n' h' := by
  subst e; rfl

/-- The first point of a half stores its block product. -/
theorem accSeq_zero (c : Dev nD) (i0 : Fin 2) :
    accSeq m c i0 0 = k0_pay5 (F := Ideal) (adjBlk m c i0 0) (tblBlk m c i0 0) := by
  unfold accSeq adjBlk tblBlk
  rw [dif_pos (by omega : 0 < 16)]
  exact (accAt_first m c (pt i0 0) (by show (16 * i0.val + 0) % 16 = 0; omega)).trans rfl

/-- Every later point of the half adds its block product to what the point before left. -/
theorem accSeq_succ (c : Dev nD) (i0 : Fin 2) (k : ℕ) (h : k + 1 < 16) :
    accSeq m c i0 (k + 1)
      = k0_pay6 (F := Ideal) (adjBlk m c i0 ⟨k + 1, h⟩) (tblBlk m c i0 ⟨k + 1, h⟩) (accSeq m c i0 k) := by
  unfold accSeq adjBlk tblBlk
  rw [dif_pos h, dif_pos (by omega : k < 16)]
  rw [accAt_next m c (pt i0 ⟨k + 1, h⟩) (by show ¬ (16 * i0.val + (k + 1)) % 16 = 0; omega)]
  unfold accNext
  exact congrArg (k0_pay6 _ _)
    (accAt_congr c (by show 16 * i0.val + (k + 1) - 1 = 16 * i0.val + k; omega) _ _)

/-- At the last block of its half a point leaves the sixteenth accumulator of that half. -/
theorem accAt_last (c : Dev nD) (t : Fin cfg0.N) (h15 : t.val % 16 = 15) :
    accAt m c t.val t.isLt = accSeq m c (halfOf t) 15 := by
  unfold accSeq
  rw [dif_pos (by omega : 15 < 16)]
  exact accAt_congr c (by show t.val = 16 * (t.val / 16) + 15; omega) _ _

/-! ## The block a half's last point stores -/

/-- The adjacency block of the point of block `k` of half `i0`, at explicit rows and columns. -/
theorem adj_at {c : Dev nD} (H : BlockIndices m c) (i0 : Fin 2) (k : Fin 16) (k' : Fin 512) (n' : Fin 4096) :
    adjBlk m c i0 k (ix2 k' n') = argA m c (ix2 (blkRow k k') (halfCol i0 n')) :=
  (H.adj (pt i0 k) k' n').trans (congrArg (argA m c) (congrArg₂ ix2
    (Fin.ext (by show 512 * ((16 * i0.val + k.val) % 16) + k'.val = 512 * k.val + k'.val; omega))
    (Fin.ext (by show 4096 * ((16 * i0.val + k.val) / 16) + n'.val = 4096 * i0.val + n'.val; omega))))

/-- The table's column block of that point, at explicit rows and columns. -/
theorem table_at {c : Dev nD} (H : BlockIndices m c) (i0 : Fin 2) (k : Fin 16) (r : Fin 136) (k' : Fin 512) :
    tblBlk m c i0 k (ix2 r k') = XH m c (ix2 r (blkRow k k')) :=
  (H.tableCols (XH m c) (pt i0 k) r k').trans (congrArg (XH m c) (congrArg (ix2 r)
    (Fin.ext (by show 512 * ((16 * i0.val + k.val) % 16) + k'.val = 512 * k.val + k'.val; omega))))

/-- WHAT THE LAST POINT OF A HALF STORES is the layer at the nodes of that half. -/
theorem out_eq_layer {c : Dev nD} (H : BlockIndices m c) (t : Fin cfg0.N) (h15 : t.val % 16 = 15)
    (n' : Fin 4096) (d' : Fin 128) :
    (outAt m c t : Vec Ideal S4096x128 .f32) (ix2 n' d')
      = layer (argX m c) (argA m c) (argU m c) (ix2 (halfCol (halfOf t) n') d') := by
  have hU : (iblk m c 2 t : Vec Ideal S128x128 .f32) = argU m c :=
    funext fun i => by rw [eq_ix2 i]; exact H.weight t _ _
  have hacc : accAt m c t.val t.isLt = accSeq m c (halfOf t) 15 := accAt_last c t h15
  have hX1 : ∀ (d : Fin 128) (j : Fin 8192), XH m c (ix2 (featRow d) j) = argX m c (ix2 j d) := XH_feat H
  have hX2 : ∀ j : Fin 8192, XH m c (ix2 oneRow j) = 1 := fun j => XH_one j
  have ha : ∀ (k : Fin 16) (k' : Fin 512) (n' : Fin 4096),
      adjBlk m c (halfOf t) k (ix2 k' n') = argA m c (ix2 (blkRow k k') (halfCol (halfOf t) n')) := adj_at H (halfOf t)
  have hxh : ∀ (k : Fin 16) (r : Fin 136) (k' : Fin 512),
      tblBlk m c (halfOf t) k (ix2 r k') = XH m c (ix2 r (blkRow k k')) := table_at H (halfOf t)
  have h0 : accSeq m c (halfOf t) 0 = k0_pay5 (F := Ideal) (adjBlk m c (halfOf t) 0) (tblBlk m c (halfOf t) 0) :=
    accSeq_zero c (halfOf t)
  have hS : ∀ (k : ℕ) (h : k + 1 < 16), accSeq m c (halfOf t) (k + 1)
      = k0_pay6 (F := Ideal) (adjBlk m c (halfOf t) ⟨k + 1, h⟩) (tblBlk m c (halfOf t) ⟨k + 1, h⟩) (accSeq m c (halfOf t) k) :=
    accSeq_succ c (halfOf t)
  have hv20 : ∀ (d : Fin 128) (n' : Fin 4096),
      View.ld (accSeq m c (halfOf t) 15) accRows (ix2 d n') = accSeq m c (halfOf t) 15 (ix2 (featRow d) n') :=
    fun d n' => H.accFeat (accSeq m c (halfOf t) 15) d n'
  have hv22 : ∀ n' : Fin 4096,
      View.ld (accSeq m c (halfOf t) 15) accDeg (ix2 (0 : Fin 1) n') = accSeq m c (halfOf t) 15 (ix2 oneRow n') :=
    fun n' => H.accOne (accSeq m c (halfOf t) 15) n'
  have key := kernel_block_eq_layer (halfOf t) (argX m c) (argA m c) (argU m c) (XH m c) hX1 hX2
    (adjBlk m c (halfOf t)) ha (tblBlk m c (halfOf t)) hxh (accSeq m c (halfOf t)) h0 hS
    (View.ld (accSeq m c (halfOf t) 15) accRows) hv20 (View.ld (accSeq m c (halfOf t) 15) accDeg) hv22 n' d'
  unfold outAt outOf
  rw [hU, hacc]
  exact key

/-- WHAT A POINT WRITES BACK is its block of the layer of the argument arrays as the region finds them. -/
theorem flushed3_eq {c : Dev nD} (H : BlockIndices m c) (t : Fin cfg0.N) (hf : (cfg0.win 3).flush t = true) :
    (dats m 0 c).flushed 3 t
      = ((cfg0.win 3).blk t).view.read (Elt Ideal) (layer (argX m c) (argA m c) (argU m c)) := by
  have h15 : t.val % 16 = 15 := (flush0_3 t).mp hf
  show (cfg0.win 3).cut (grid0.coords t) ((dats m 0 c).after 3 t) = _
  rw [after0_3]
  funext j
  obtain ⟨n', d', rfl⟩ : ∃ (n' : Fin 4096) (d' : Fin 128), j = ix2 n' d' := ⟨j 0, j 1, eq_ix2 j⟩
  show (outAt m c t : Vec Ideal S4096x128 .f32) (ix2 n' d')
    = layer (argX m c) (argA m c) (argU m c) (((cfg0.win 3).blk t).view.emb (ix2 n' d'))
  rw [H.outRows t h15 n' d']
  exact out_eq_layer H t h15 n' d'

/-! ## The output array after the run, and the run -/

/-- The output array after the run is the layer of the argument arrays, given the index equations. -/
theorem final3_of {c : Dev nD} (H : BlockIndices m c) :
    (dats m 0 c).arrAt 3 cfg0.N = layer (argX m c) (argA m c) (argU m c) :=
  (dats m 0 c).arrAt_eq_of_cover 3 _ (fun t hf => flushed3_eq H t hf) H.cover

/-- The run, given the index equations. -/
theorem run_of (H : ∀ c : Dev nD, BlockIndices m c) :
    θ_run defs (onTc (τ := τ) (main (F := Ideal))) ⟨m, fun _ => 0, ρ⟩ fun r => ∀ c : Dev nD,
      r.2.mem ((c : Thread nD τ).loc main_v0)
        = layer (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final3_of (H c)),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c)))⟩)
    (run_main m ρ)

/-! ## The index equations hold, and the two results without hypotheses -/

variable (m) in
/-- The index equations of core `c`, each from the index maps of the windows decided over the grid. -/
theorem blockIndices (c : Dev nD) : BlockIndices m c where
  adj := Idx.adj_block m c
  feat := Idx.x_block_apply m c
  weight := Idx.u_block_apply m c
  tableCols := Idx.xh_ld
  accFeat := Idx.acc_rows_ld
  accOne := Idx.acc_deg_ld
  outRows := fun t _ n' d' => Idx.out_emb_ix2 t n' d'
  cover := Idx.out_cover

variable (m) in
/-- THE OUTPUT ARRAY after the run is the layer of the argument arrays as the region finds them. -/
theorem final3 (c : Dev nD) :
    (dats m 0 c).arrAt 3 cfg0.N = layer (argX m c) (argA m c) (argU m c) :=
  final3_of (blockIndices m c)

variable (m) in
/-- THE RUN: every weakly fair execution of the program ends with the output array at the layer of the argument
    arrays, and the argument arrays as launched. -/
theorem run :
    θ_run defs (onTc (τ := τ) (main (F := Ideal))) ⟨m, fun _ => 0, ρ⟩ fun r => ∀ c : Dev nD,
      r.2.mem ((c : Thread nD τ).loc main_v0)
        = layer (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  run_of ρ (blockIndices m)

end Cert.KernelIdeal.RunValue

end
-- ==== Proof.RefSide.lean ====
/-
  The reference program's result, read as a function of its argument arrays at the ideal values, is the layer of
  `Cert.ConvSpec`, when every adjacency word is 0 or 1.

  The mask `(a > 0)` converted to a float and the word `a` read as a signed integer are the same extended real for
  such a word; the 32-bit column sum of at most 2^31 - 1 such words does not wrap, so the integer it holds is the
  sum of the integers the words hold; the rest is the two contractions read as sums, the transposes and broadcasts
  read at an index, and commutativity of the product inside the sums.
-/
import proofs.«178046_g24824910970967_cont_8to1_1833_20_alg».proof.Proof.Gen.ReferenceIdeal.Read
import proofs.«178046_g24824910970967_cont_8to1_1833_20_alg».proof.Proof.Spec
import Idealize.ShloMosaic.PureOps.Reduce

noncomputable section

open scoped BigOperators

namespace Cert.ReferenceIdeal.RefValue

open Cert.ReferenceIdeal Cert.ReferenceIdeal.Gen Cert.ReferenceIdeal.Read Cert.ConvSpec
open Idealize.ShloMosaic Idealize.ShloMosaic.ValueIdx

/-! ## Words that are 0 or 1 -/

/-- For a word that is 0 or 1 the mask `(a > 0)`, read unsigned as a float, is the word read signed. -/
theorem mask_eq_toInt (a : BitVec 32) (h : a = 0#32 ∨ a = 1#32) :
    FloatOps.uitofp (F := Ideal) .f32 (IntOp.cmpi .sgt a 0#32) = (((a.toInt : ℤ) : ℝ) : EReal) := by
  rcases h with rfl | rfl
  · show ((((IntOp.cmpi .sgt (0#32) 0#32).toNat : ℕ) : ℝ) : EReal) = ((((0#32 : BitVec 32).toInt : ℤ) : ℝ) : EReal)
    have e1 : (IntOp.cmpi .sgt (0#32) 0#32).toNat = 0 := by decide
    have e2 : (0#32 : BitVec 32).toInt = 0 := by decide
    rw [e1, e2]; simp
  · show ((((IntOp.cmpi .sgt (1#32) 0#32).toNat : ℕ) : ℝ) : EReal) = ((((1#32 : BitVec 32).toInt : ℤ) : ℝ) : EReal)
    have e1 : (IntOp.cmpi .sgt (1#32) 0#32).toNat = 1 := by decide
    have e2 : (1#32 : BitVec 32).toInt = 1 := by decide
    rw [e1, e2]; simp

/-- A word that is 0 or 1 holds, read unsigned, at most 1. -/
theorem toNat_le_one {a : BitVec 32} (h : a = 0#32 ∨ a = 1#32) : a.toNat ≤ 1 := by
  rcases h with rfl | rfl <;> decide

/-- A word that is 0 or 1 holds the same integer read signed or unsigned. -/
theorem toInt_eq_toNat {a : BitVec 32} (h : a = 0#32 ∨ a = 1#32) : a.toInt = (a.toNat : ℤ) := by
  rcases h with rfl | rfl <;> decide

/-! ## A 32-bit sum of words that are at most 1 -/

/-- The wrapping 32-bit sum, from zero, of fewer than 2^32 words each at most 1 (read unsigned) holds the sum of
    the numbers the words hold, which is at most their count: it does not wrap. -/
theorem fold_addi_toNat {ι : Type} [DecidableEq ι] (f : ι → BitVec 32) :
    ∀ S : Finset ι, (∀ i ∈ S, (f i).toNat ≤ 1) → S.card < 2 ^ 32 →
      (S.fold IntOp.addi 0#32 f).toNat = ∑ i ∈ S, (f i).toNat ∧ ∑ i ∈ S, (f i).toNat ≤ S.card := by
  intro S
  induction S using Finset.induction_on with
  | empty => intro _ _; exact ⟨rfl, Nat.le_refl _⟩
  | insert a S ha ih =>
    intro hf hc
    rw [Finset.card_insert_of_notMem ha] at hc
    obtain ⟨e, le⟩ := ih (fun i hi => hf i (Finset.mem_insert_of_mem hi)) (by omega)
    have h1 := hf a (Finset.mem_insert_self a S)
    rw [Finset.fold_insert ha, Finset.sum_insert ha, Finset.card_insert_of_notMem ha]
    refine ⟨?_, by omega⟩
    show (f a + S.fold IntOp.addi 0#32 f).toNat = _
    rw [BitVec.toNat_add, e, Nat.mod_eq_of_lt (by omega)]

/-- The same sum of at most 2^31 - 1 words each 0 or 1, read signed: the sum of the integers the words hold. -/
theorem fold_addi_toInt {ι : Type} [DecidableEq ι] (f : ι → BitVec 32) (S : Finset ι)
    (hf : ∀ i ∈ S, f i = 0#32 ∨ f i = 1#32) (hc : S.card < 2 ^ 31) :
    (S.fold IntOp.addi 0#32 f).toInt = ∑ i ∈ S, (f i).toInt := by
  obtain ⟨e, le⟩ := fold_addi_toNat f S (fun i hi => toNat_le_one (hf i hi)) (by omega)
  rw [BitVec.toInt_eq_toNat_of_lt (by omega), e, Nat.cast_sum]
  exact Finset.sum_congr rfl fun i hi => (toInt_eq_toNat (hf i hi)).symm

/-- The real-to-extended-real coercion of a finite sum is the sum of the coercions. -/
theorem coe_sum_ereal {ι : Type} [DecidableEq ι] (S : Finset ι) (g : ι → ℝ) :
    ((∑ i ∈ S, g i : ℝ) : EReal) = ∑ i ∈ S, (g i : EReal) := by
  induction S using Finset.induction_on with
  | empty => simp
  | insert a S ha ih => rw [Finset.sum_insert ha, Finset.sum_insert ha, EReal.coe_add, ih]

/-! ## The column sum -/

/-- The shape fact of the column reduction, in the form its index lift is defined from. -/
theorem reduces_d0 : S8192x8192.Reduces [0] S8192 := by decide

/-- The index of row `k` over column `n`. -/
theorem lift_eq (n : Fin 8192) (k : Fin (S8192x8192.size 0)) :
    reduces_d0.lift (ix1 n) k = ix2 (⟨k.val, k.isLt⟩ : Fin 8192) n := by
  funext c
  apply Fin.ext
  show reduces_d0.liftVal (ix1 n) k.val c = _
  unfold Shape.Reduces.liftVal
  match c with
  | ⟨0, _⟩ => exact dif_pos rfl
  | ⟨1, _⟩ => exact (dif_neg Nat.one_ne_zero).trans (dif_neg (Nat.not_lt_zero 1))

/-- The 32-bit column sum of an adjacency matrix of zeros and ones holds, read signed, the sum of the integers
    the column's words hold. -/
theorem colsum_toInt (A : IVec S8192x8192 32)
    (hA : ∀ j n : Fin 8192, A (ix2 j n) = 0#32 ∨ A (ix2 j n) = 1#32) (n : Fin 8192) :
    (val_main_v3 (F := Ideal) A (ix1 n)).toInt = ∑ j : Fin 8192, (A (ix2 j n)).toInt := by
  unfold val_main_v3
  rw [Host.reduce_eq_fold_single IntOp.addi A (val_main_c_0 (F := Ideal)) reducesTo_S8192x8192_S8192_d0 reduces_d0 h_S_
    (ix1 n)]
  have e : (A ∘ reduces_d0.lift (ix1 n)) = fun k : Fin 8192 => A (ix2 k n) := funext fun k => by
    show A (reduces_d0.lift (ix1 n) k) = _
    exact congrArg A (lift_eq n k)
  rw [e]
  exact fold_addi_toInt (fun k : Fin 8192 => A (ix2 k n)) Finset.univ (fun k _ => hA k n)
    (by rw [Finset.card_univ, Fintype.card_fin]; decide)

/-- The column sum converted to a float is the degree. -/
theorem colsum_eq_deg (A : IVec S8192x8192 32)
    (hA : ∀ j n : Fin 8192, A (ix2 j n) = 0#32 ∨ A (ix2 j n) = 1#32) (n : Fin 8192) :
    FloatOps.sitofp (F := Ideal) .f32 (val_main_v3 (F := Ideal) A (ix1 n)) = deg A n := by
  show ((((val_main_v3 (F := Ideal) A (ix1 n)).toInt : ℤ) : ℝ) : EReal) = _
  rw [colsum_toInt A hA n, Int.cast_sum, coe_sum_ereal]
  rfl

/-! ## The stages at coordinates -/

section Stages

variable (x : FVec Ideal S8192x128 .f32) (A : IVec S8192x8192 32) (U : FVec Ideal S128x128 .f32)
  (hA : ∀ j n : Fin 8192, A (ix2 j n) = 0#32 ∨ A (ix2 j n) = 1#32)

include hA

/-- The transposed mask at node `n` and row `j` is the adjacency entry of row `j` and column `n`. -/
theorem mask_apply (n j : Fin 8192) : val_main_v5 (F := Ideal) A (ix2 n j) = adjVal A j n := by
  rw [val_main_v5_apply, val_main_v2_apply, val_main_v1_apply, val_main_v0_apply, val_main_c_apply]
  have e : idx_main_v5 (ix2 n j) = ix2 j n := funext fun a => match a with
    | ⟨0, _⟩ => rfl
    | ⟨1, _⟩ => rfl
  rw [e]
  exact mask_eq_toInt _ (hA j n)

/-- The first contraction at node `n` and feature `d` is the neighbour sum. -/
theorem agg_apply (n : Fin 8192) (d : Fin 128) : val_main_v6 (F := Ideal) x A (ix2 n d) = agg x A d n := by
  rw [val_main_v6_apply]
  refine Finset.sum_congr rfl fun j _ => ?_
  have el : lidx_main_v6 (ix2 n d) j = ix2 n j := funext fun a => match a with
    | ⟨0, _⟩ => rfl
    | ⟨1, _⟩ => rfl
  have er : ridx_main_v6 (ix2 n d) j = ix2 j d := funext fun a => match a with
    | ⟨0, _⟩ => rfl
    | ⟨1, _⟩ => rfl
  rw [el, er, mask_apply A hA n j, mul_comm]

/-- The second contraction at node `n` and output feature `d'` mixes the neighbour sums by row `d'` of `U`. -/
theorem mix_apply (n : Fin 8192) (d' : Fin 128) :
    val_main_v8 (F := Ideal) x A U (ix2 n d') = ∑ d : Fin 128, U (ix2 d' d) * agg x A d n := by
  rw [val_main_v8_apply]
  refine Finset.sum_congr rfl fun d _ => ?_
  have el : lidx_main_v8 (ix2 n d') d = ix2 n d := funext fun a => match a with
    | ⟨0, _⟩ => rfl
    | ⟨1, _⟩ => rfl
  have er : idx_main_v7 (ridx_main_v8 (ix2 n d') d) = ix2 d' d := funext fun a => match a with
    | ⟨0, _⟩ => rfl
    | ⟨1, _⟩ => rfl
  rw [el, val_main_v7_apply, er, agg_apply x A hA n d, mul_comm]

omit x U in
/-- The broadcast column sum at node `n`, whatever the feature, is the degree. -/
theorem deg_apply (n : Fin 8192) (d' : Fin 128) : val_main_v10 (F := Ideal) A (ix2 n d') = deg A n := by
  rw [val_main_v10_apply, val_main_v9_apply, val_main_v4_apply]
  have e : idx_main_v9 (idx_main_v10 (ix2 n d')) = ix1 n := funext fun a => match a with
    | ⟨0, _⟩ => rfl
  rw [e]
  exact colsum_eq_deg A hA n

/-- THE REFERENCE'S RESULT IS THE LAYER: the term the run states for the result buffer, at the ideal values and as a
    function of the three argument arrays, when every adjacency word is 0 or 1. -/
theorem ref_is_layer :
    maximumf (Host.divf (Host.dotGeneral dot_S8192x128_S128x128_S8192x128_1_0_0_1_n_n none (Host.dotGeneral dot_S8192x8192_S8192x128_S8192x128_1_0_0_1_n_n none (transpose S8192x8192 [1, 0] (uitofp (F := Ideal) .f32 (cmpi .sgt (A) (broadcastInDim S8192x8192 ![] bcast_S_S8192x8192 (constantI S_ 32 0#32)))) transposes_S8192x8192_S8192x8192_1_0) (x)) (transpose S128x128 [1, 0] (U) transposes_S128x128_S128x128_1_0)) (broadcastInDim S8192x128 ![0, 1] bcast_S8192x1_S8192x128_0_1 (broadcastInDim S8192x1 ![0] bcast_S8192_S8192x1_0 (sitofp (F := Ideal) .f32 (Host.reduce IntOp.addi (A) (constantI S_ 32 0#32) reducesTo_S8192x8192_S8192_d0 h_S_))))) (broadcastInDim S8192x128 ![] bcast_S_S8192x128 (constant (F := Ideal) S_ .f32 0x00000000#32))
      = layer x A U := by
  refine (val_main_v12_eq (F := Ideal) x A U).trans ?_
  funext i
  obtain ⟨n, d', rfl⟩ : ∃ (n : Fin 8192) (d' : Fin 128), i = ix2 n d' := ⟨i 0, i 1, eq_ix2 i⟩
  rw [val_main_v12_apply, val_main_v11_apply, val_main_call0_v0_apply, val_main_call0_cst_apply,
    mix_apply x A U hA n d', deg_apply A hA n d']
  show max (Ideal.div _ _) (Ideal.ofBits .f32 0x00000000#32) = max (Ideal.div _ _) 0
  rw [Ideal.ofBits_zero_f32]

end Stages

end Cert.ReferenceIdeal.RefValue

end
-- ==== Proof.PreDecode.lean ====
/-
  The printed precondition, read back: when `finite_inputs` of the argument arrays is all ones, every word of the
  adjacency matrix is 0 or 1. The predicate is the conjunction of three `all`s; the third is over
  `(adj == 0) | (adj == 1)`, and an `all` that is 1 had a 1 at every index.
-/
import proofs.«178046_g24824910970967_cont_8to1_1833_20_alg».proof.Pre_finite_inputs
import Idealize.ShloMosaic.Lib.ReduceAll
import Idealize.ShloMosaic.Lib.ValueIdx
import Idealize.ShloMosaic.Lib.Pipeline.Value

noncomputable section

namespace Cert.PreDecode

open Idealize.ShloMosaic Idealize.ShloMosaic.ValueIdx Cert.Pre_finite_inputs

/-- The scalar shape has one index. -/
instance : Subsingleton S_.Idx := ⟨fun a b => funext fun d => d.elim0⟩

/-- For any float values: if the precondition is all ones, every adjacency word is 0 or 1. -/
theorem adj_01_of {F : FTy → Type} [FloatOps F] [Cert.Pre_finite_inputs.Facts] (x : FVec F S8192x128 .f32)
    (A : IVec S8192x8192 32) (U : FVec F S128x128 .f32)
    (h : Cert.Pre_finite_inputs.fn (F := F) x A U = fun _ => 1#1) :
    ∀ j n : Fin 8192, A (ix2 j n) = 0#32 ∨ A (ix2 j n) = 1#32 := by
  intro j n
  have h0 := congrFun h ix0
  dsimp only [Cert.Pre_finite_inputs.fn] at h0
  obtain ⟨_, h14⟩ := IntOp.andi_eq_one.1 h0
  have e := Host.reduce_andi_all _ _ _ _ _ h14 (ix2 j n)
  rcases IntOp.ori_eq_one.1 e with e0 | e1
  · left
    refine (IntOp.cmpi_eq.1 e0).trans ?_
    exact broadcastInDim_apply _ Facts.bcast_S_S8192x8192 _ (ix2 j n) ix0 (fun a => a.elim0)
  · right
    refine (IntOp.cmpi_eq.1 e1).trans ?_
    exact broadcastInDim_apply _ Facts.bcast_S_S8192x8192 _ (ix2 j n) ix0 (fun a => a.elim0)

/-- At the ideal values: if the precondition is all ones, every adjacency word is 0 or 1. -/
theorem adj_01 [Cert.Pre_finite_inputs.Facts] (x : FVec Ideal S8192x128 .f32) (A : IVec S8192x8192 32)
    (U : FVec Ideal S128x128 .f32) (h : Cert.Pre_finite_inputs.fn (F := Ideal) x A U = fun _ => 1#1) :
    ∀ j n : Fin 8192, A (ix2 j n) = 0#32 ∨ A (ix2 j n) = 1#32 :=
  adj_01_of x A U h

end Cert.PreDecode

end
-- ==== Proof.lean ====
/-
  The certificate of a graph-convolution layer, new_x[n] = relu((U · Σ_j adj[j, n] · x[j]) / deg_n) with
  deg_n = Σ_j adj[j, n], over a 0/1 adjacency matrix adj : i32[8192, 8192], features x : f32[8192, 128] and a mixing
  matrix U : f32[128, 128].

  The kernel walks adj in [512, 4096] blocks over a (column half, contraction block) grid. At the first point it fills a
  [136, 8192] table with x transposed (rows 0..127), a row of ones (row 128) and zero rows; at every point it multiplies
  the table's column block by the adjacency block, read as integers, and keeps the running sum in a [136, 4096]
  accumulator (stored afresh at the first contraction block of a half, added to afterwards); at the last contraction
  block rows 0..127 of the accumulator are the neighbour sums, row 128 the degrees, and the output block is
  max((U · sums) / degrees, 0) transposed. The reference masks adj by (adj > 0), multiplies the transposed mask by x and
  then by U transposed, divides by the int32 column sums of adj, and rectifies.

  At the ideal values both are the one function `Cert.ConvSpec.layer`: a change of float format is the identity, a sum
  taken in sixteen blocks is the sum, products commute; and where every entry of adj is 0 or 1 (the added
  precondition) the mask (adj > 0) is adj itself and the int32 column sum of 8192 such entries does not wrap. The kernel
  side needs no such hypothesis: it reads the integer the word holds. No distributive law is used, so the finiteness
  of x and U is never opened.

  The three frames: the two kernels' by the body run at every grid point in its four control cases (first point; first
  contraction block of the second half; a middle block; the last block of a half) over an invariant that carries the
  two scratch buffers' contents from point to point; the reference's by its run with the result dropped. The ideal pass
  rewrote nothing, so `preserves` is `True`.
-/
import proofs.«178046_g24824910970967_cont_8to1_1833_20_alg».proof.Defs
import proofs.«178046_g24824910970967_cont_8to1_1833_20_alg».proof.Proof.Gen.Kernel
import proofs.«178046_g24824910970967_cont_8to1_1833_20_alg».proof.Proof.Gen.KernelIdeal
import proofs.«178046_g24824910970967_cont_8to1_1833_20_alg».proof.Proof.Gen.ReferenceIdeal
import proofs.«178046_g24824910970967_cont_8to1_1833_20_alg».proof.Proof.Gen.Pre_finite_inputs
import proofs.«178046_g24824910970967_cont_8to1_1833_20_alg».proof.Proof.BitsFrame
import proofs.«178046_g24824910970967_cont_8to1_1833_20_alg».proof.Proof.IdealFrame
import proofs.«178046_g24824910970967_cont_8to1_1833_20_alg».proof.Proof.KernelValue
import proofs.«178046_g24824910970967_cont_8to1_1833_20_alg».proof.Proof.RefSide
import proofs.«178046_g24824910970967_cont_8to1_1833_20_alg».proof.Proof.PreDecode
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- At the ideal values the kernel's result array ends at the layer of its arguments (the kernel's value, read off its
    run) and the reference's at the composed term of its operations, which under the precondition — every adjacency
    entry 0 or 1 — is the same layer of arguments that agree. -/
theorem algebraic : Cert.algebraic_KernelIdeal_ReferenceIdeal := by
  intro m ρ m' ρ' hpre hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.RefValue.ref_is_layer _ _ _ (Cert.PreDecode.adj_01 _ _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
